-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1000000 : Shape := ⟨1, ![1000000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32 .f32) (main_arg5 : FVec F S32x16 .f32) (main_arg6 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x64 .f32) (main_arg1 : FVec F S64x64 .f32) (main_arg2 : FVec F S64 .f32) (main_arg3 : FVec F S64x32 .f32) (main_arg4 : FVec F S32 .f32) (main_arg5 : FVec F S32x16 .f32) (main_arg6 : FVec F S16 .f32) (main_arg7 : IVec S1000000 32) (main_arg8 : IVec S1000000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S50000x1 : Shape := ⟨2, ![50000, 1]⟩
abbrev S10000x64 : Shape := ⟨2, ![10000, 64]⟩
abbrev S10000x1 : Shape := ⟨2, ![10000, 1]⟩
abbrev S1000000x64 : Shape := ⟨2, ![1000000, 64]⟩
abbrev S1x64 : Shape := ⟨2, ![1, 64]⟩
abbrev S1x32 : Shape := ⟨2, ![1, 32]⟩
abbrev S50000x32 : Shape := ⟨2, ![50000, 32]⟩
abbrev S10000x32 : Shape := ⟨2, ![10000, 32]⟩
abbrev S1000000x32 : Shape := ⟨2, ![1000000, 32]⟩
abbrev S1x16 : Shape := ⟨2, ![1, 16]⟩
abbrev S50000x16 : Shape := ⟨2, ![50000, 16]⟩
abbrev S10000x16 : Shape := ⟨2, ![10000, 16]⟩

abbrev nBuf : Space → Nat
  | .hbm => 81
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S50000, .f32⟩
  | .hbm, ⟨13, _⟩ => ⟨S1000000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S1000000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .f32⟩
  | .hbm, ⟨39, _⟩ => ⟨S50000x64, .f32⟩
  | .hbm, ⟨40, _⟩ => ⟨S1000000x1, .i32⟩
  | .hbm, ⟨41, _⟩ => ⟨S50000x64, .f32⟩
  | .hbm, ⟨42, _⟩ => ⟨S50000x1, .f32⟩
  | .hbm, ⟨43, _⟩ => ⟨S1x64, .f32⟩
  | .hbm, ⟨44, _⟩ => ⟨S50000x64, .f32⟩
  | .hbm, ⟨45, _⟩ => ⟨S50000x1, .f32⟩
  | .hbm, ⟨46, _⟩ => ⟨S50000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .f32⟩
  | .hbm, ⟨56, _⟩ => ⟨S_, .f32⟩
  | .hbm, ⟨57, _⟩ => ⟨S50000x64, .f32⟩
  | .hbm, ⟨58, _⟩ => ⟨S1000000x1, .i32⟩
  | .hbm, ⟨59, _⟩ => ⟨S50000x64, .f32⟩
  | .hbm, ⟨60, _⟩ => ⟨S50000x1, .f32⟩
  | .hbm, ⟨61, _⟩ => ⟨S1x32, .f32⟩
  | .hbm, ⟨62, _⟩ => ⟨S50000x32, .f32⟩
  | .hbm, ⟨63, _⟩ => ⟨S50000x1, .f32⟩
  | .hbm, ⟨64, _⟩ => ⟨S50000x32, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x32, .f32⟩
  | .hbm, ⟨74, _⟩ => ⟨S_, .f32⟩
  | .hbm, ⟨75, _⟩ => ⟨S50000x32, .f32⟩
  | .hbm, ⟨76, _⟩ => ⟨S1000000x1, .i32⟩
  | .hbm, ⟨77, _⟩ => ⟨S50000x32, .f32⟩
  | .hbm, ⟨78, _⟩ => ⟨S50000x1, .f32⟩
  | .hbm, ⟨79, _⟩ => ⟨S1x16, .f32⟩
  | .hbm, ⟨80, _⟩ => ⟨S50000x16, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | .local _ .vmem, ⟨24, _⟩ => ⟨S64x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x1, .f32⟩
  | .local _ .vmem, ⟨31, _⟩ => ⟨S10000x1, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x1, .f32⟩
  | .local _ .vmem, ⟨37, _⟩ => ⟨S10000x1, .f32⟩
  | .local _ .vmem, ⟨38, _⟩ => ⟨S32x16, .f32⟩
  | .local _ .vmem, ⟨39, _⟩ => ⟨S1x16, .f32⟩
  | .local _ .vmem, ⟨40, _⟩ => ⟨S10000x16, .f32⟩
  | .local _ .vmem, ⟨41, _⟩ => ⟨S10000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  shapeCasts_S50000_S50000x1 : S50000.ShapeCasts S50000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  bcast_S_S50000x32 : S_.BroadcastsInDim S50000x32 (![] : Fin 0 → Fin S50000x32.rank)
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S50000_S1000000x1_S1000000_n_0_0_1_wf : ScatterDims.WF S50000 S1000000x1 S1000000 [] [0] [0] 1
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S50000x32_S1000000x1_S1000000x32_1_0_n_n_0_1_132_wf : GatherDims.WF S50000x32 S1000000x1 S1000000x32 [1] [0] [] [0] [] 1 ![1, 32]
  scatter_S50000x32_S1000000x1_S1000000x32_1_0_0_1_wf : ScatterDims.WF S50000x32 S1000000x1 S1000000x32 [1] [0] [0] 1
  dot_S10000x32_S32x16_S10000x16_1_0_0_1_n_n_wf : DotDims.WF S10000x32 S32x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S50000x32.size a
  hwx3_4 : ∀ i : grid3.Coords, EltTy.bits .f32 = 32 ∨ (Rect.block (s := S50000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S50000x1.size a
  hwx4_1 : ∀ i : grid4.Coords, EltTy.bits .f32 = 32 ∨ (Rect.block (s := S50000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S50000x32.size a
  hwx4_2 : ∀ i : grid4.Coords, EltTy.bits .f32 = 32 ∨ (Rect.block (s := S50000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S50000x32.size a
  hwx5_0 : ∀ i : grid5.Coords, EltTy.bits .f32 = 32 ∨ (Rect.block (s := S50000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x16.size a ≤ S32x16.size a
  hwx5_2 : ∀ i : grid5.Coords, EltTy.bits .f32 = 32 ∨ (Rect.block (s := S32x16) S32x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x16.size a ≤ S50000x16.size a
  hwx5_4 : ∀ i : grid5.Coords, EltTy.bits .f32 = 32 ∨ (Rect.block (s := S50000x16) S10000x16.size (cc5_transform_4 i) (hinb5_4 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def scatter_S50000x32_S1000000x1_S1000000x32_1_0_0_1 : ScatterDims S50000x32 S1000000x1 S1000000x32 where
  updateWindowDims := [1]
  insertedWindowDims := [0]
  scatterDimsToOperandDims := [0]
  indexVectorDim := 1
  wf := scatter_S50000x32_S1000000x1_S1000000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v42) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S32x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S10000x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1000000 : Shape := ⟨1, ![1000000]⟩
abbrev S_ : Shape := ⟨0, ![]⟩
abbrev S50000 : Shape := ⟨1, ![50000]⟩
abbrev S1000000x1 : Shape := ⟨2, ![1000000, 1]⟩
abbrev S50000x1 : Shape := ⟨2, ![50000, 1]⟩
abbrev S1000000x64 : Shape := ⟨2, ![1000000, 64]⟩
abbrev S1x64 : Shape := ⟨2, ![1, 64]⟩
abbrev S50000x32 : Shape := ⟨2, ![50000, 32]⟩
abbrev S1x32 : Shape := ⟨2, ![1, 32]⟩
abbrev S1000000x32 : Shape := ⟨2, ![1000000, 32]⟩
abbrev S50000x16 : Shape := ⟨2, ![50000, 16]⟩
abbrev S1x16 : Shape := ⟨2, ![1, 16]⟩

abbrev nBuf : Space → Nat
  | .hbm => 102
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S50000, .f32⟩
  | .hbm, ⟨13, _⟩ => ⟨S1000000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S1000000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S50000x64, .f32⟩
  | .hbm, ⟨41, _⟩ => ⟨S1000000x1, .i32⟩
  | .hbm, ⟨42, _⟩ => ⟨S50000x64, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .f32⟩
  | .hbm, ⟨65, _⟩ => ⟨S_, .f32⟩
  | .hbm, ⟨66, _⟩ => ⟨S50000x64, .f32⟩
  | .hbm, ⟨67, _⟩ => ⟨S1000000x1, .i32⟩
  | .hbm, ⟨68, _⟩ => ⟨S50000x64, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x32, .f32⟩
  | .hbm, ⟨73, _⟩ => ⟨S1x32, .f32⟩
  | .hbm, ⟨74, _⟩ => ⟨S50000x32, .f32⟩
  | .hbm, ⟨75, _⟩ => ⟨S50000x32, .f32⟩
  | .hbm, ⟨76, _⟩ => ⟨S_, .f32⟩
  | .hbm, ⟨77, _⟩ => ⟨S50000x32, .f32⟩
  | .hbm, ⟨78, _⟩ => ⟨S50000x32, .f32⟩
  | .hbm, ⟨79, _⟩ => ⟨S50000x1, .f32⟩
  | .hbm, ⟨80, _⟩ => ⟨S50000x32, .f32⟩
  | .hbm, ⟨81, _⟩ => ⟨S50000x32, .f32⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x32, .f32⟩
  | .hbm, ⟨91, _⟩ => ⟨S_, .f32⟩
  | .hbm, ⟨92, _⟩ => ⟨S50000x32, .f32⟩
  | .hbm, ⟨93, _⟩ => ⟨S1000000x1, .i32⟩
  | .hbm, ⟨94, _⟩ => ⟨S50000x32, .f32⟩
  | .hbm, ⟨95, _⟩ => ⟨S50000x1, .f32⟩
  | .hbm, ⟨96, _⟩ => ⟨S50000x32, .f32⟩
  | .hbm, ⟨97, _⟩ => ⟨S50000x32, .f32⟩
  | .hbm, ⟨98, _⟩ => ⟨S50000x16, .f32⟩
  | .hbm, ⟨99, _⟩ => ⟨S1x16, .f32⟩
  | .hbm, ⟨100, _⟩ => ⟨S50000x16, .f32⟩
  | .hbm, ⟨101, _⟩ => ⟨S50000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S1000000x1_S1000000_n_0_0_1_wf : ScatterDims.WF S50000 S1000000x1 S1000000 [] [0] [0] 1
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  gather_S50000x32_S1000000x1_S1000000x32_1_0_n_n_0_1_132_wf : GatherDims.WF S50000x32 S1000000x1 S1000000x32 [1] [0] [] [0] [] 1 ![1, 32]
  scatter_S50000x32_S1000000x1_S1000000x32_1_0_0_1_wf : ScatterDims.WF S50000x32 S1000000x1 S1000000x32 [1] [0] [0] 1
  dot_S50000x32_S32x16_S50000x16_1_0_0_1_n_n_wf : DotDims.WF S50000x32 S32x16 S50000x16 [1] [0] [0] [1] [] []

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def scatter_S50000x32_S1000000x1_S1000000x32_1_0_0_1 : ScatterDims S50000x32 S1000000x1 S1000000x32 where
  updateWindowDims := [1]
  insertedWindowDims := [0]
  scatterDimsToOperandDims := [0]
  indexVectorDim := 1
  wf := scatter_S50000x32_S1000000x1_S1000000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf

class Facts : Prop extends Facts₀ where

variable [Facts]
-- ==== Proof.KernelRun.lean ====
/-
  The idealized kernel's run with its two results named.

  The program is twelve segments in order: six stretches of host operations and six kernel regions.  The
  contents of the TensorCore's buffers at the segment boundaries form a chain `W0, W1, …, W12`: `W0` is the
  launch memory, a host stretch takes a boundary to the next by applying its operations, and a region takes it
  to the next by replacing its windows' arrays with what the region's write-backs leave.  Every weakly fair
  execution terminates without a fault in a state whose unscoped buffers hold `W12`; read at the two result
  buffers that is the statement below, beside the nine argument arrays ending as launched.  What `W12` holds
  at the two results, as a function of the arguments, is worked out in the modules that import this one.
-/
import proofs.«112273_j32023276159006_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the second layer's
    output and the third layer's output at the last boundary's contents `W12`, and the arguments as launched. -/
theorem run_results : θ_run defs (onTc (τ := τ) (main (F := F))) ⟨m, fun _ => 0, ρ⟩ (fun r => ∀ c : Dev nD,
      r.2.mem ((c.tc : Thread nD τ).loc main_v42) = W12 m ρ c (Proc.devRef .tc main_v42)
      ∧ r.2.mem ((c.tc : Thread nD τ).loc main_v57) = W12 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v42 (by decide)),
       h c _ (mem_uc main_v57 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.RefStages.lean ====
/-
  The reference program's six layer stages, each read at one index with explicit coordinates.

  The reference is a three-layer graph convolution. Each layer scales the node features by one degree norm,
  aggregates them along the edges (the aggregated messages stay opaque here), scales the aggregate by the other
  degree norm, multiplies by the layer's weight matrix, and adds the bias; the first two layers end in a
  rectifier. Read at the node `r` and the feature `q`, a scaling is a product with the norm at `r`, the matrix
  product is the sum over the contracted feature `k`, and the rectifier is the maximum with zero.
-/
import proofs.«112273_j32023276159006_1_alg».proof.Proof.Gen.ReferenceIdeal.Read
import Idealize.ShloMosaic.Lib.ValueIdx

noncomputable section

open scoped BigOperators

namespace Cert.ReferenceIdeal.Stages

open Cert.ReferenceIdeal Cert.ReferenceIdeal.Read Idealize.ShloMosaic Idealize.ShloMosaic.ValueIdx

/-- A node's norm, broadcast along the feature axis and read at `(r, q)`, is the norm at `r`. -/
theorem norm_idx_64 (r : Fin 50000) (q : Fin 64) : idx_main_v13 (idx_main_v14 (ix2 r q)) = ix1 r :=
  funext fun a => Fin.ext (by match a with | ⟨0, _⟩ => rfl)

/-- First layer, scaling before aggregation: the feature at `(r, q)` times the source norm at `r`. -/
theorem scaled1_at (x0 : (⟨S50000x64, .f32⟩ : BufTy).Contents (Elt Ideal))
    (x7 : (⟨S1000000, .i32⟩ : BufTy).Contents (Elt Ideal)) (r : Fin 50000) (q : Fin 64) :
    val_main_v15 (F := Ideal) x0 x7 (ix2 r q) = x0 (ix2 r q) * val_main_v9 (F := Ideal) x7 (ix1 r) := by
  rw [val_main_v15_apply, val_main_v14_apply, val_main_v13_apply, norm_idx_64]
  rfl

/-- The contraction's left operand at `(r, q)`, `k`: row `r`, contracted feature `k`. -/
theorem dot1_lidx (r : Fin 50000) (q k : Fin 64) : lidx_main_v29 (ix2 r q) k = ix2 r k :=
  funext fun a => Fin.ext (by match a with | ⟨0, _⟩ => rfl | ⟨1, _⟩ => rfl)

/-- The contraction's right operand at `(r, q)`, `k`: contracted feature `k`, output feature `q`. -/
theorem dot1_ridx (r : Fin 50000) (q k : Fin 64) : ridx_main_v29 (ix2 r q) k = ix2 k q :=
  funext fun a => Fin.ext (by match a with | ⟨0, _⟩ => rfl | ⟨1, _⟩ => rfl)

/-- The target norm, broadcast along the feature axis and read at `(r, k)`, is the norm at `r`. -/
theorem norm1_idx (r : Fin 50000) (k : Fin 64) : idx_main_v26 (idx_main_v27 (ix2 r k)) = ix1 r :=
  funext fun a => Fin.ext (by match a with | ⟨0, _⟩ => rfl)

/-- The bias, broadcast along the node axis and read at `(r, q)`, is the bias at `q`. -/
theorem bias1_idx (r : Fin 50000) (q : Fin 64) : idx_main_v30 (idx_main_v31 (ix2 r q)) = ix1 q :=
  funext fun a => Fin.ext (by match a with | ⟨0, _⟩ => rfl)

/-- First layer's output: the aggregate at row `r`, scaled by the target norm at `r`, times the weight
    matrix's column `q`, plus the bias at `q`, rectified. -/
theorem hidden1_at (x0 : (⟨S50000x64, .f32⟩ : BufTy).Contents (Elt Ideal)) (x1 : (⟨S64x64, .f32⟩ : BufTy).Contents (Elt Ideal))
    (x2 : (⟨S64, .f32⟩ : BufTy).Contents (Elt Ideal)) (x7 x8 : (⟨S1000000, .i32⟩ : BufTy).Contents (Elt Ideal))
    (r : Fin 50000) (q : Fin 64) :
    val_main_v33 (F := Ideal) x0 x1 x2 x7 x8 (ix2 r q)
      = max ((∑ k : Fin 64, (val_main_v25 (F := Ideal) x0 x7 x8 (ix2 r k) * val_main_v12 (F := Ideal) x8 (ix1 r))
                * x1 (ix2 k q)) + x2 (ix1 q)) (FloatOps.ofBits (F := Ideal) .f32 0x00000000#32) := by
  have hsum : (∑ k : Fin 64, (val_main_v28 (F := Ideal) x0 x7 x8) (lidx_main_v29 (ix2 r q) k) * x1 (ridx_main_v29 (ix2 r q) k))
      = ∑ k : Fin 64, (val_main_v25 (F := Ideal) x0 x7 x8 (ix2 r k) * val_main_v12 (F := Ideal) x8 (ix1 r)) * x1 (ix2 k q) :=
    Finset.sum_congr rfl fun k _ => by
      rw [dot1_lidx, dot1_ridx, val_main_v28_apply, val_main_v27_apply, val_main_v26_apply, norm1_idx]
      rfl
  rw [val_main_v33_apply, val_main_v32_apply, val_main_v29_apply, hsum, val_main_v31_apply, val_main_v30_apply,
    bias1_idx, val_main_call0_v0_apply, val_main_call0_cst_apply]
  rfl

/-- The source norm for the second layer, read at `(r, q)`, is the norm at `r`. -/
theorem norm2s_idx (r : Fin 50000) (q : Fin 64) : idx_main_v34 (idx_main_v35 (ix2 r q)) = ix1 r :=
  funext fun a => Fin.ext (by match a with | ⟨0, _⟩ => rfl)

/-- Second layer, scaling before aggregation: the first layer's output at `(r, q)` times the source norm at `r`. -/
theorem scaled2_at (x0 : (⟨S50000x64, .f32⟩ : BufTy).Contents (Elt Ideal)) (x1 : (⟨S64x64, .f32⟩ : BufTy).Contents (Elt Ideal))
    (x2 : (⟨S64, .f32⟩ : BufTy).Contents (Elt Ideal)) (x7 x8 : (⟨S1000000, .i32⟩ : BufTy).Contents (Elt Ideal))
    (r : Fin 50000) (q : Fin 64) :
    val_main_v36 (F := Ideal) x0 x1 x2 x7 x8 (ix2 r q)
      = val_main_v33 (F := Ideal) x0 x1 x2 x7 x8 (ix2 r q) * val_main_v9 (F := Ideal) x7 (ix1 r) := by
  rw [val_main_v36_apply, val_main_v35_apply, val_main_v34_apply, norm2s_idx]
  rfl

/-- The second contraction's left operand at `(r, q)`, `k`: row `r`, contracted feature `k`. -/
theorem dot2_lidx (r : Fin 50000) (q : Fin 32) (k : Fin 64) : lidx_main_v50 (ix2 r q) k = ix2 r k :=
  funext fun a => Fin.ext (by match a with | ⟨0, _⟩ => rfl | ⟨1, _⟩ => rfl)

/-- The second contraction's right operand at `(r, q)`, `k`: contracted feature `k`, output feature `q`. -/
theorem dot2_ridx (r : Fin 50000) (q : Fin 32) (k : Fin 64) : ridx_main_v50 (ix2 r q) k = ix2 k q :=
  funext fun a => Fin.ext (by match a with | ⟨0, _⟩ => rfl | ⟨1, _⟩ => rfl)

/-- The target norm for the second layer, read at `(r, k)`, is the norm at `r`. -/
theorem norm2_idx (r : Fin 50000) (k : Fin 64) : idx_main_v47 (idx_main_v48 (ix2 r k)) = ix1 r :=
  funext fun a => Fin.ext (by match a with | ⟨0, _⟩ => rfl)

/-- The second bias, broadcast along the node axis and read at `(r, q)`, is the bias at `q`. -/
theorem bias2_idx (r : Fin 50000) (q : Fin 32) : idx_main_v51 (idx_main_v52 (ix2 r q)) = ix1 q :=
  funext fun a => Fin.ext (by match a with | ⟨0, _⟩ => rfl)

/-- Second layer before its rectifier: the aggregate at row `r`, scaled by the target norm at `r`, times the
    weight matrix's column `q`, plus the bias at `q`. -/
theorem embed_at (x0 : (⟨S50000x64, .f32⟩ : BufTy).Contents (Elt Ideal)) (x1 : (⟨S64x64, .f32⟩ : BufTy).Contents (Elt Ideal))
    (x2 : (⟨S64, .f32⟩ : BufTy).Contents (Elt Ideal)) (x3 : (⟨S64x32, .f32⟩ : BufTy).Contents (Elt Ideal))
    (x4 : (⟨S32, .f32⟩ : BufTy).Contents (Elt Ideal)) (x7 x8 : (⟨S1000000, .i32⟩ : BufTy).Contents (Elt Ideal))
    (r : Fin 50000) (q : Fin 32) :
    val_main_v53 (F := Ideal) x0 x1 x2 x3 x4 x7 x8 (ix2 r q)
      = (∑ k : Fin 64, (val_main_v46 (F := Ideal) x0 x1 x2 x7 x8 (ix2 r k) * val_main_v12 (F := Ideal) x8 (ix1 r))
            * x3 (ix2 k q)) + x4 (ix1 q) := by
  have hsum : (∑ k : Fin 64, (val_main_v49 (F := Ideal) x0 x1 x2 x7 x8) (lidx_main_v50 (ix2 r q) k) * x3 (ridx_main_v50 (ix2 r q) k))
      = ∑ k : Fin 64, (val_main_v46 (F := Ideal) x0 x1 x2 x7 x8 (ix2 r k) * val_main_v12 (F := Ideal) x8 (ix1 r)) * x3 (ix2 k q) :=
    Finset.sum_congr rfl fun k _ => by
      rw [dot2_lidx, dot2_ridx, val_main_v49_apply, val_main_v48_apply, val_main_v47_apply, norm2_idx]
      rfl
  rw [val_main_v53_apply, val_main_v50_apply, hsum, val_main_v52_apply, val_main_v51_apply, bias2_idx]
  rfl

/-- The source norm for the third layer, read at `(r, q)`, is the norm at `r`. -/
theorem norm3s_idx (r : Fin 50000) (q : Fin 32) : idx_main_v55 (idx_main_v56 (ix2 r q)) = ix1 r :=
  funext fun a => Fin.ext (by match a with | ⟨0, _⟩ => rfl)

/-- Third layer, scaling before aggregation: the second layer's value at `(r, q)`, rectified, times the source
    norm at `r`. -/
theorem scaled3_at (x0 : (⟨S50000x64, .f32⟩ : BufTy).Contents (Elt Ideal)) (x1 : (⟨S64x64, .f32⟩ : BufTy).Contents (Elt Ideal))
    (x2 : (⟨S64, .f32⟩ : BufTy).Contents (Elt Ideal)) (x3 : (⟨S64x32, .f32⟩ : BufTy).Contents (Elt Ideal))
    (x4 : (⟨S32, .f32⟩ : BufTy).Contents (Elt Ideal)) (x7 x8 : (⟨S1000000, .i32⟩ : BufTy).Contents (Elt Ideal))
    (r : Fin 50000) (q : Fin 32) :
    val_main_v57 (F := Ideal) x0 x1 x2 x3 x4 x7 x8 (ix2 r q)
      = max (val_main_v53 (F := Ideal) x0 x1 x2 x3 x4 x7 x8 (ix2 r q)) (FloatOps.ofBits (F := Ideal) .f32 0x00000000#32)
          * val_main_v9 (F := Ideal) x7 (ix1 r) := by
  rw [val_main_v57_apply, val_main_v54_apply, val_main_call1_v0_apply, val_main_call1_cst_apply, val_main_v56_apply,
    val_main_v55_apply, norm3s_idx]
  rfl

/-- The third contraction's left operand at `(r, q)`, `k`: row `r`, contracted feature `k`. -/
theorem dot3_lidx (r : Fin 50000) (q : Fin 16) (k : Fin 32) : lidx_main_v71 (ix2 r q) k = ix2 r k :=
  funext fun a => Fin.ext (by match a with | ⟨0, _⟩ => rfl | ⟨1, _⟩ => rfl)

/-- The third contraction's right operand at `(r, q)`, `k`: contracted feature `k`, output feature `q`. -/
theorem dot3_ridx (r : Fin 50000) (q : Fin 16) (k : Fin 32) : ridx_main_v71 (ix2 r q) k = ix2 k q :=
  funext fun a => Fin.ext (by match a with | ⟨0, _⟩ => rfl | ⟨1, _⟩ => rfl)

/-- The target norm for the third layer, read at `(r, k)`, is the norm at `r`. -/
theorem norm3_idx (r : Fin 50000) (k : Fin 32) : idx_main_v68 (idx_main_v69 (ix2 r k)) = ix1 r :=
  funext fun a => Fin.ext (by match a with | ⟨0, _⟩ => rfl)

/-- The third bias, broadcast along the node axis and read at `(r, q)`, is the bias at `q`. -/
theorem bias3_idx (r : Fin 50000) (q : Fin 16) : idx_main_v72 (idx_main_v73 (ix2 r q)) = ix1 q :=
  funext fun a => Fin.ext (by match a with | ⟨0, _⟩ => rfl)

/-- Third layer's output: the aggregate at row `r`, scaled by the target norm at `r`, times the weight
    matrix's column `q`, plus the bias at `q`. -/
theorem out3_at (x0 : (⟨S50000x64, .f32⟩ : BufTy).Contents (Elt Ideal)) (x1 : (⟨S64x64, .f32⟩ : BufTy).Contents (Elt Ideal))
    (x2 : (⟨S64, .f32⟩ : BufTy).Contents (Elt Ideal)) (x3 : (⟨S64x32, .f32⟩ : BufTy).Contents (Elt Ideal))
    (x4 : (⟨S32, .f32⟩ : BufTy).Contents (Elt Ideal)) (x5 : (⟨S32x16, .f32⟩ : BufTy).Contents (Elt Ideal))
    (x6 : (⟨S16, .f32⟩ : BufTy).Contents (Elt Ideal)) (x7 x8 : (⟨S1000000, .i32⟩ : BufTy).Contents (Elt Ideal))
    (r : Fin 50000) (q : Fin 16) :
    val_main_v74 (F := Ideal) x0 x1 x2 x3 x4 x5 x6 x7 x8 (ix2 r q)
      = (∑ k : Fin 32, (val_main_v67 (F := Ideal) x0 x1 x2 x3 x4 x7 x8 (ix2 r k) * val_main_v12 (F := Ideal) x8 (ix1 r))
            * x5 (ix2 k q)) + x6 (ix1 q) := by
  have hsum : (∑ k : Fin 32, (val_main_v70 (F := Ideal) x0 x1 x2 x3 x4 x7 x8) (lidx_main_v71 (ix2 r q) k) * x5 (ridx_main_v71 (ix2 r q) k))
      = ∑ k : Fin 32, (val_main_v67 (F := Ideal) x0 x1 x2 x3 x4 x7 x8 (ix2 r k) * val_main_v12 (F := Ideal) x8 (ix1 r)) * x5 (ix2 k q) :=
    Finset.sum_congr rfl fun k _ => by
      rw [dot3_lidx, dot3_ridx, val_main_v70_apply, val_main_v69_apply, val_main_v68_apply, norm3_idx]
      rfl
  rw [val_main_v74_apply, val_main_v71_apply, hsum, val_main_v73_apply, val_main_v72_apply, bias3_idx]
  rfl

end Cert.ReferenceIdeal.Stages
-- ==== Proof.Kept.lean ====
/-
  What the kernel program never overwrites.

  The program's buffer contents at its thirteen segment boundaries form a chain W0, …, W12 (W0 the launch memory).
  Nothing in the program writes one of the nine argument arrays, and the two degree-norm vectors computed by the
  first stretch of host operations are never written again.  So at every later boundary each of these eleven
  buffers holds what it held at boundary 1, and the arguments hold there what they held at launch: a host stretch
  leaves a buffer alone when none of its operations has it as result, and a kernel region leaves alone every
  buffer that is not one of its windows' arrays, and an input window's array too.  The second layer's output,
  one of the program's two results, likewise survives from the region that writes it to the end.
-/
import proofs.«112273_j32023276159006_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem Idealize.ShloMosaic.StableHlo

/-- A stretch of host operations leaves a buffer as it was when no operation of the stretch writes it. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-- One of the program's nine argument arrays. -/
abbrev IsArg (b : Ref sig .tc) : Prop :=
  b = main_arg0 ∨ b = main_arg1 ∨ b = main_arg2 ∨ b = main_arg3 ∨ b = main_arg4 ∨ b = main_arg5 ∨ b = main_arg6
    ∨ b = main_arg7 ∨ b = main_arg8

/-- An argument array, or one of the two degree-norm vectors (source side, destination side). -/
abbrev IsKept (b : Ref sig .tc) : Prop := IsArg b ∨ b = main_v9 ∨ b = main_v12

/-- At boundary 1 every argument is as launched: the first host stretch writes none. -/
theorem arg_at1 (b : Ref sig .tc) (hb : IsArg b) : W1 m ρ c (Proc.devRef .tc b) = m ((c : Thread nD τ).loc b) := by
  rcases hb with rfl | rfl | rfl | rfl | rfl | rfl | rfl | rfl | rfl <;>
    exact (show W1 m ρ c _ = W0 m ρ c _ by host_keeps hostOps0).trans rfl

/-! ## One step at a time: each segment after the first leaves the eleven buffers alone -/

theorem step2 (b : Ref sig .tc) (hb : IsKept b) : W2 m ρ c (Proc.devRef .tc b) = W1 m ρ c (Proc.devRef .tc b) := by
  rcases hb with (rfl | rfl | rfl | rfl | rfl | rfl | rfl | rfl | rfl) | rfl | rfl <;>
    first
    | exact W2_of_ne m ρ c _ (by decide)
    | exact (W2_arr m ρ c 0).trans (((dat0 (V1 m ρ) c).arrAt_in 0 rfl _).trans (A_eq0 (V1 m ρ) c 0))

theorem step3 (b : Ref sig .tc) (hb : IsKept b) : W3 m ρ c (Proc.devRef .tc b) = W2 m ρ c (Proc.devRef .tc b) := by
  rcases hb with (rfl | rfl | rfl | rfl | rfl | rfl | rfl | rfl | rfl) | rfl | rfl <;> host_keeps hostOps1

theorem step4 (b : Ref sig .tc) (hb : IsKept b) : W4 m ρ c (Proc.devRef .tc b) = W3 m ρ c (Proc.devRef .tc b) := by
  rcases hb with (rfl | rfl | rfl | rfl | rfl | rfl | rfl | rfl | rfl) | rfl | rfl <;>
    first
    | exact W4_of_ne m ρ c _ (by decide)
    | exact (W4_arr m ρ c 2).trans (((dat1 (V3 m ρ) c).arrAt_in 2 rfl _).trans (A_eq1 (V3 m ρ) c 2))

theorem step5 (b : Ref sig .tc) (hb : IsKept b) : W5 m ρ c (Proc.devRef .tc b) = W4 m ρ c (Proc.devRef .tc b) := by
  rcases hb with (rfl | rfl | rfl | rfl | rfl | rfl | rfl | rfl | rfl) | rfl | rfl <;> host_keeps hostOps2

theorem step6 (b : Ref sig .tc) (hb : IsKept b) : W6 m ρ c (Proc.devRef .tc b) = W5 m ρ c (Proc.devRef .tc b) := by
  rcases hb with (rfl | rfl | rfl | rfl | rfl | rfl | rfl | rfl | rfl) | rfl | rfl <;> exact W6_of_ne m ρ c _ (by decide)

theorem step7 (b : Ref sig .tc) (hb : IsKept b) : W7 m ρ c (Proc.devRef .tc b) = W6 m ρ c (Proc.devRef .tc b) := by
  rcases hb with (rfl | rfl | rfl | rfl | rfl | rfl | rfl | rfl | rfl) | rfl | rfl <;> host_keeps hostOps3

theorem step8 (b : Ref sig .tc) (hb : IsKept b) : W8 m ρ c (Proc.devRef .tc b) = W7 m ρ c (Proc.devRef .tc b) := by
  rcases hb with (rfl | rfl | rfl | rfl | rfl | rfl | rfl | rfl | rfl) | rfl | rfl <;>
    first
    | exact W8_of_ne m ρ c _ (by decide)
    | exact (W8_arr m ρ c 2).trans (((dat3 (V7 m ρ) c).arrAt_in 2 rfl _).trans (A_eq3 (V7 m ρ) c 2))

theorem step9 (b : Ref sig .tc) (hb : IsKept b) : W9 m ρ c (Proc.devRef .tc b) = W8 m ρ c (Proc.devRef .tc b) := by
  rcases hb with (rfl | rfl | rfl | rfl | rfl | rfl | rfl | rfl | rfl) | rfl | rfl <;> host_keeps hostOps4

theorem step10 (b : Ref sig .tc) (hb : IsKept b) : W10 m ρ c (Proc.devRef .tc b) = W9 m ρ c (Proc.devRef .tc b) := by
  rcases hb with (rfl | rfl | rfl | rfl | rfl | rfl | rfl | rfl | rfl) | rfl | rfl <;> exact W10_of_ne m ρ c _ (by decide)

theorem step11 (b : Ref sig .tc) (hb : IsKept b) : W11 m ρ c (Proc.devRef .tc b) = W10 m ρ c (Proc.devRef .tc b) := by
  rcases hb with (rfl | rfl | rfl | rfl | rfl | rfl | rfl | rfl | rfl) | rfl | rfl <;> host_keeps hostOps5

/-! ## Back to boundary 1 -/

theorem kept2 (b : Ref sig .tc) (hb : IsKept b) : W2 m ρ c (Proc.devRef .tc b) = W1 m ρ c (Proc.devRef .tc b) := step2 m ρ c b hb
theorem kept3 (b : Ref sig .tc) (hb : IsKept b) : W3 m ρ c (Proc.devRef .tc b) = W1 m ρ c (Proc.devRef .tc b) := (step3 m ρ c b hb).trans (kept2 m ρ c b hb)
theorem kept4 (b : Ref sig .tc) (hb : IsKept b) : W4 m ρ c (Proc.devRef .tc b) = W1 m ρ c (Proc.devRef .tc b) := (step4 m ρ c b hb).trans (kept3 m ρ c b hb)
theorem kept5 (b : Ref sig .tc) (hb : IsKept b) : W5 m ρ c (Proc.devRef .tc b) = W1 m ρ c (Proc.devRef .tc b) := (step5 m ρ c b hb).trans (kept4 m ρ c b hb)
theorem kept6 (b : Ref sig .tc) (hb : IsKept b) : W6 m ρ c (Proc.devRef .tc b) = W1 m ρ c (Proc.devRef .tc b) := (step6 m ρ c b hb).trans (kept5 m ρ c b hb)
theorem kept7 (b : Ref sig .tc) (hb : IsKept b) : W7 m ρ c (Proc.devRef .tc b) = W1 m ρ c (Proc.devRef .tc b) := (step7 m ρ c b hb).trans (kept6 m ρ c b hb)
theorem kept8 (b : Ref sig .tc) (hb : IsKept b) : W8 m ρ c (Proc.devRef .tc b) = W1 m ρ c (Proc.devRef .tc b) := (step8 m ρ c b hb).trans (kept7 m ρ c b hb)
theorem kept9 (b : Ref sig .tc) (hb : IsKept b) : W9 m ρ c (Proc.devRef .tc b) = W1 m ρ c (Proc.devRef .tc b) := (step9 m ρ c b hb).trans (kept8 m ρ c b hb)
theorem kept10 (b : Ref sig .tc) (hb : IsKept b) : W10 m ρ c (Proc.devRef .tc b) = W1 m ρ c (Proc.devRef .tc b) := (step10 m ρ c b hb).trans (kept9 m ρ c b hb)
theorem kept11 (b : Ref sig .tc) (hb : IsKept b) : W11 m ρ c (Proc.devRef .tc b) = W1 m ρ c (Proc.devRef .tc b) := (step11 m ρ c b hb).trans (kept10 m ρ c b hb)

/-! ## The two layer outputs that are read again later -/

/-- The first layer's activations pass the one reshape between the regions that write and read them. -/
theorem v27_at5 : W5 m ρ c (Proc.devRef .tc main_v27) = W4 m ρ c (Proc.devRef .tc main_v27) := by
  host_keeps hostOps2

/-- The second layer's output, a result of the program, is read by the next region as an input and is never
    written again: it ends as the region that computes it left it. -/
theorem v42_at12 : W12 m ρ c (Proc.devRef .tc main_v42) = W8 m ρ c (Proc.devRef .tc main_v42) :=
  calc W12 m ρ c (Proc.devRef .tc main_v42)
    _ = W11 m ρ c (Proc.devRef .tc main_v42) := W12_of_ne m ρ c main_v42 (by decide)
    _ = W10 m ρ c (Proc.devRef .tc main_v42) := by host_keeps hostOps5
    _ = W9 m ρ c (Proc.devRef .tc main_v42) :=
        (W10_arr m ρ c 0).trans (((dat4 (V9 m ρ) c).arrAt_in 0 rfl _).trans (A_eq4 (V9 m ρ) c 0))
    _ = W8 m ρ c (Proc.devRef .tc main_v42) := by host_keeps hostOps4

theorem v42_at9 : W9 m ρ c (Proc.devRef .tc main_v42) = W8 m ρ c (Proc.devRef .tc main_v42) := by
  host_keeps hostOps4

end Cert.KernelIdeal.Kept

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.ScaleRows0.lean ====
/-
  The first row-scaling kernel: what its output array holds.

  The kernel walks the [50000, 64] feature table in five blocks of 10000 rows.  At each block it loads the block of
  features and the matching block of the [50000, 1] norm column, spreads each row's one norm entry over the 64
  columns, multiplies entrywise and stores the block.  Every row of the table lies in exactly one block
  (row r in block r / 10000), so after the five points the output array is, entry by entry,
      out (r, q) = x (r, q) · n (r, 0).
  This is stated for arbitrary contents of the buffers on entry to the kernel, so that it can be used wherever
  the kernel sits in the program.
-/
import proofs.«112273_j32023276159006_1_alg».proof.Proof.Gen.KernelIdeal.Frame
import proofs.«112273_j32023276159006_1_alg».proof.Proof.LibColumnLayout
import Idealize.ShloMosaic.Lib.Pipeline.Value
import Idealize.ShloMosaic.Lib.ValueIdx

set_option maxRecDepth 16384

noncomputable section

namespace Cert.KernelIdeal.ScaleRows0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a two-axis rectangle. -/
theorem origin2 : (![0, 0] : Fin 2 → Nat) = fun _ => 0 := funext fun a => by fin_cases a <;> rfl

/-- Each row of a table multiplied by that row's entry of a one-column table. -/
def rowScaled (x : S50000x64.Idx → Elt Ideal .f32) (n : S50000x1.Idx → Elt Ideal .f32) : S50000x64.Idx → Elt Ideal .f32 :=
  fun i => x i * n (ix2 (i 0) (0 : Fin 1))

/-- The body's stored value at row p, column q of a block: the feature entry times the row's norm entry. -/
theorem payload_at (x0 : Vec Ideal S10000x64 .f32) (x1 : Vec Ideal S10000x1 .f32) (p : Fin 10000) (q : Fin 64) :
    k0_pay1 (F := Ideal) x0 x1 (ix2 p q) = x0 (ix2 p q) * x1 (ix2 p (0 : Fin 1)) := by
  unfold k0_pay1
  show x0 (ix2 p q) * broadcastTo S10000x64 (shapeCast S10000x1 x1 shapeCasts_S10000x1_S10000x1) broadcasts_S10000x1_S10000x64 (ix2 p q) = _
  rw [ColumnLayout.broadcastTo_a1_ab_apply, shapeCast_self]

variable (V : (c : Dev nD) → (b : Ref sig .tc) → Buf (Elt Ideal) ((c : Thread nD τ).loc b))

/-- The block indices over the five grid points: the feature block and the norm block sit at the output block's
    rows, every column-block index is 0, and the row-block index is at most 4. -/
theorem index_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 4 :=
  (by decide +kernel : ∀ t : Fin grid0.N, _)

/-- Every one of the five row blocks is some grid point's. -/
theorem block_onto : ∀ q0 : Fin 5, ∃ t : Fin cfg0.N, win0_2.index t = ![q0.val, 0] :=
  (by decide +kernel : ∀ q0 : Fin 5, ∃ t : Fin grid0.N, win0_2.index t = ![q0.val, 0])

/-- What grid point t writes back is block t of the row-scaled table. -/
theorem flushed_eq (c : Dev nD) (t : Fin cfg0.N) :
    (dat0 V c).flushed 2 t = ((cfg0.win 2).blk t).view.read (Elt Ideal)
      (rowScaled (V c (Pipeline.arrRef spec0 0)) (V c (Pipeline.arrRef spec0 1))) := by
  show (cfg0.win 2).cut (grid0.coords t) ((dat0 V c).after 2 t) = _
  rw [after0_2]
  unfold out0_2
  rw [View.canon_unit_zero origin2]
  simp only [View.ld_unit_zero (S := S10000x64) origin2, View.ld_unit_zero (S := S10000x1) origin2]
  obtain ⟨e0, e1, e2, e3, e4, e5⟩ := index_facts t
  funext j
  show k0_pay1 (F := Ideal) (iblk0 V c 0 t) (iblk0 V c 1 t) j
      = rowScaled (V c (Pipeline.arrRef spec0 0)) (V c (Pipeline.arrRef spec0 1)) (((cfg0.win 2).blk t).view.emb j)
  have hj0 : (j 0).val < 10000 := (j 0).isLt
  have hj1 : (j 1).val < 64 := (j 1).isLt
  -- the feature block's entry (p, q) is the table's entry at the output block's position
  have h0 : ((cfg0.win 0).blk t).view.emb (ix2 (j 0) (j 1) : S10000x64.Idx) = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  -- the norm block's entry (p, 0) is the column's entry at the output position's row
  have h1 : ((cfg0.win 1).blk t).view.emb (ix2 (j 0) (0 : Fin 1) : S10000x1.Idx)
      = (ix2 ((((cfg0.win 2).blk t).view.emb j) 0) (0 : Fin 1) : S50000x1.Idx) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  -- the stored value at (p, q), then each factor read at the table position the block entry comes from
  refine ((congrArg (k0_pay1 (F := Ideal) (iblk0 V c 0 t) (iblk0 V c 1 t)) (eq_ix2 j)).trans
    (payload_at (iblk0 V c 0 t) (iblk0 V c 1 t) (j 0) (j 1))).trans ?_
  exact congrArg₂ (fun (x y : Elt Ideal .f32) => x * y)
    (congrArg (V c (Pipeline.arrRef spec0 0)) h0) (congrArg (V c (Pipeline.arrRef spec0 1)) h1)

/-- An index of the table is in grid point t's block iff each coordinate is in the block's range on its axis. -/
theorem mem_blk (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v14).slice (win0_2.rect t)).set ↔ _
  rw [View.set_slice_whole, Rect.mem_set_unit]
  exact Iff.rfl

/-- The five blocks cover the table: row r lies in block r / 10000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the five grid points the output array is the row-scaled table of the two input arrays as the kernel
    found them. -/
theorem array_eq (c : Dev nD) :
    (dat0 V c).arrAt 2 cfg0.N = rowScaled (V c (Pipeline.arrRef spec0 0)) (V c (Pipeline.arrRef spec0 1)) :=
  (dat0 V c).arrAt_eq_of_cover 2 _ (fun t _ => flushed_eq V c t) covered

end Cert.KernelIdeal.ScaleRows0

end
-- ==== Proof.ScaleRows2.lean ====
/-
  The second row-scaling kernel (it scales the first layer's activations): what its output array holds.

  The kernel walks the [50000, 64] feature table in five blocks of 10000 rows.  At each block it loads the block of
  features and the matching block of the [50000, 1] norm column, spreads each row's one norm entry over the 64
  columns, multiplies entrywise and stores the block.  Every row of the table lies in exactly one block
  (row r in block r / 10000), so after the five points the output array is, entry by entry,
      out (r, q) = x (r, q) · n (r, 0).
  This is stated for arbitrary contents of the buffers on entry to the kernel, so that it can be used wherever
  the kernel sits in the program.
-/
import proofs.«112273_j32023276159006_1_alg».proof.Proof.Gen.KernelIdeal.Frame
import proofs.«112273_j32023276159006_1_alg».proof.Proof.LibColumnLayout
import Idealize.ShloMosaic.Lib.Pipeline.Value
import Idealize.ShloMosaic.Lib.ValueIdx

set_option maxRecDepth 16384

noncomputable section

namespace Cert.KernelIdeal.ScaleRows2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a two-axis rectangle. -/
theorem origin2 : (![0, 0] : Fin 2 → Nat) = fun _ => 0 := funext fun a => by fin_cases a <;> rfl

/-- Each row of a table multiplied by that row's entry of a one-column table. -/
def rowScaled (x : S50000x64.Idx → Elt Ideal .f32) (n : S50000x1.Idx → Elt Ideal .f32) : S50000x64.Idx → Elt Ideal .f32 :=
  fun i => x i * n (ix2 (i 0) (0 : Fin 1))

/-- The body's stored value at row p, column q of a block: the feature entry times the row's norm entry. -/
theorem payload_at (x0 : Vec Ideal S10000x64 .f32) (x1 : Vec Ideal S10000x1 .f32) (p : Fin 10000) (q : Fin 64) :
    k2_pay1 (F := Ideal) x0 x1 (ix2 p q) = x0 (ix2 p q) * x1 (ix2 p (0 : Fin 1)) := by
  unfold k2_pay1
  show shapeCast S10000x64 x0 shapeCasts_S10000x64_S10000x64 (ix2 p q)
      * broadcastTo S10000x64 (shapeCast S10000x1 x1 shapeCasts_S10000x1_S10000x1) broadcasts_S10000x1_S10000x64 (ix2 p q) = _
  rw [ColumnLayout.broadcastTo_a1_ab_apply, shapeCast_self, shapeCast_self]

variable (V : (c : Dev nD) → (b : Ref sig .tc) → Buf (Elt Ideal) ((c : Thread nD τ).loc b))

/-- The block indices over the five grid points: the feature block and the norm block sit at the output block's
    rows, every column-block index is 0, and the row-block index is at most 4. -/
theorem index_facts : ∀ t : Fin cfg2.N,
    win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) ≤ 4 :=
  (by decide +kernel : ∀ t : Fin grid2.N, _)

/-- Every one of the five row blocks is some grid point's. -/
theorem block_onto : ∀ q0 : Fin 5, ∃ t : Fin cfg2.N, win2_2.index t = ![q0.val, 0] :=
  (by decide +kernel : ∀ q0 : Fin 5, ∃ t : Fin grid2.N, win2_2.index t = ![q0.val, 0])

/-- What grid point t writes back is block t of the row-scaled table. -/
theorem flushed_eq (c : Dev nD) (t : Fin cfg2.N) :
    (dat2 V c).flushed 2 t = ((cfg2.win 2).blk t).view.read (Elt Ideal)
      (rowScaled (V c (Pipeline.arrRef spec2 0)) (V c (Pipeline.arrRef spec2 1))) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S10000x1) origin2]
  obtain ⟨e0, e1, e2, e3, e4, e5⟩ := index_facts t
  funext j
  show k2_pay1 (F := Ideal) (iblk2 V c 0 t) (iblk2 V c 1 t) j
      = rowScaled (V c (Pipeline.arrRef spec2 0)) (V c (Pipeline.arrRef spec2 1)) (((cfg2.win 2).blk t).view.emb j)
  have hj0 : (j 0).val < 10000 := (j 0).isLt
  have hj1 : (j 1).val < 64 := (j 1).isLt
  -- the feature block's entry (p, q) is the table's entry at the output block's position
  have h0 : ((cfg2.win 0).blk t).view.emb (ix2 (j 0) (j 1) : S10000x64.Idx) = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  -- the norm block's entry (p, 0) is the column's entry at the output position's row
  have h1 : ((cfg2.win 1).blk t).view.emb (ix2 (j 0) (0 : Fin 1) : S10000x1.Idx)
      = (ix2 ((((cfg2.win 2).blk t).view.emb j) 0) (0 : Fin 1) : S50000x1.Idx) := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  -- the stored value at (p, q), then each factor read at the table position the block entry comes from
  refine ((congrArg (k2_pay1 (F := Ideal) (iblk2 V c 0 t) (iblk2 V c 1 t)) (eq_ix2 j)).trans
    (payload_at (iblk2 V c 0 t) (iblk2 V c 1 t) (j 0) (j 1))).trans ?_
  exact congrArg₂ (fun (x y : Elt Ideal .f32) => x * y)
    (congrArg (V c (Pipeline.arrRef spec2 0)) h0) (congrArg (V c (Pipeline.arrRef spec2 1)) h1)

/-- An index of the table is in grid point t's block iff each coordinate is in the block's range on its axis. -/
theorem mem_blk (t : Fin cfg2.N) (i : S50000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v29).slice (win2_2.rect t)).set ↔ _
  rw [View.set_slice_whole, Rect.mem_set_unit]
  exact Iff.rfl

/-- The five blocks cover the table: row r lies in block r / 10000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the five grid points the output array is the row-scaled table of the two input arrays as the kernel
    found them. -/
theorem array_eq (c : Dev nD) :
    (dat2 V c).arrAt 2 cfg2.N = rowScaled (V c (Pipeline.arrRef spec2 0)) (V c (Pipeline.arrRef spec2 1)) :=
  (dat2 V c).arrAt_eq_of_cover 2 _ (fun t _ => flushed_eq V c t) covered

end Cert.KernelIdeal.ScaleRows2

end
-- ==== Proof.ScaleRows4.lean ====
/-
  The third row-scaling kernel: it applies the activation to the second layer's output and scales the rows.

  The kernel walks the [50000, 32] table in five blocks of 10000 rows.  At each block it loads the block and the
  matching block of the [50000, 1] norm column, replaces each entry by its maximum with 0, spreads each row's one
  norm entry over the 32 columns, multiplies entrywise and stores the block.  Every row lies in exactly one block
  (row r in block r / 10000), so after the five points the output array is, entry by entry,
      out (r, q) = max (x (r, q), 0) · n (r, 0).
  This is stated for arbitrary contents of the buffers on entry to the kernel.
-/
import proofs.«112273_j32023276159006_1_alg».proof.Proof.Gen.KernelIdeal.Frame
import proofs.«112273_j32023276159006_1_alg».proof.Proof.LibColumnLayout
import Idealize.ShloMosaic.Lib.Pipeline.Value
import Idealize.ShloMosaic.Lib.ValueIdx

set_option maxRecDepth 16384

noncomputable section

namespace Cert.KernelIdeal.ScaleRows4

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a two-axis rectangle. -/
theorem origin2 : (![0, 0] : Fin 2 → Nat) = fun _ => 0 := funext fun a => by fin_cases a <;> rfl

/-- Each entry replaced by its maximum with 0, then each row multiplied by that row's entry of a one-column table. -/
def reluRowScaled (x : S50000x32.Idx → Elt Ideal .f32) (n : S50000x1.Idx → Elt Ideal .f32) : S50000x32.Idx → Elt Ideal .f32 :=
  fun i => max (x i) (FloatOps.ofBits (F := Ideal) .f32 0x00000000#32) * n (ix2 (i 0) (0 : Fin 1))

/-- The body's stored value at row p, column q of a block: the entry's maximum with 0, times the row's norm entry. -/
theorem payload_at (x0 : Vec Ideal S10000x32 .f32) (x1 : Vec Ideal S10000x1 .f32) (p : Fin 10000) (q : Fin 32) :
    k4_pay1 (F := Ideal) x0 x1 (ix2 p q)
      = max (x0 (ix2 p q)) (FloatOps.ofBits (F := Ideal) .f32 0x00000000#32) * x1 (ix2 p (0 : Fin 1)) := by
  unfold k4_pay1
  show max (shapeCast S10000x32 x0 shapeCasts_S10000x32_S10000x32 (ix2 p q)) (FloatOps.ofBits (F := Ideal) .f32 0x00000000#32)
      * broadcastTo S10000x32 (shapeCast S10000x1 x1 shapeCasts_S10000x1_S10000x1) broadcasts_S10000x1_S10000x32 (ix2 p q) = _
  rw [ColumnLayout.broadcastTo_a1_ab_apply, shapeCast_self, shapeCast_self]

variable (V : (c : Dev nD) → (b : Ref sig .tc) → Buf (Elt Ideal) ((c : Thread nD τ).loc b))

/-- The block indices over the five grid points: the feature block and the norm block sit at the output block's
    rows, every column-block index is 0, and the row-block index is at most 4. -/
theorem index_facts : ∀ t : Fin cfg4.N,
    win4_0.index t (0 : Fin 2) = win4_2.index t (0 : Fin 2) ∧ win4_0.index t (1 : Fin 2) = 0
    ∧ win4_1.index t (0 : Fin 2) = win4_2.index t (0 : Fin 2) ∧ win4_1.index t (1 : Fin 2) = 0
    ∧ win4_2.index t (1 : Fin 2) = 0 ∧ win4_2.index t (0 : Fin 2) ≤ 4 :=
  (by decide +kernel : ∀ t : Fin grid4.N, _)

/-- Every one of the five row blocks is some grid point's. -/
theorem block_onto : ∀ q0 : Fin 5, ∃ t : Fin cfg4.N, win4_2.index t = ![q0.val, 0] :=
  (by decide +kernel : ∀ q0 : Fin 5, ∃ t : Fin grid4.N, win4_2.index t = ![q0.val, 0])

/-- What grid point t writes back is block t of the row-scaled table. -/
theorem flushed_eq (c : Dev nD) (t : Fin cfg4.N) :
    (dat4 V c).flushed 2 t = ((cfg4.win 2).blk t).view.read (Elt Ideal)
      (reluRowScaled (V c (Pipeline.arrRef spec4 0)) (V c (Pipeline.arrRef spec4 1))) := by
  show (cfg4.win 2).cut (grid4.coords t) ((dat4 V c).after 2 t) = _
  rw [after4_2]
  unfold out4_2
  rw [View.canon_unit_zero origin2]
  simp only [View.ld_unit_zero (S := S10000x32) origin2, View.ld_unit_zero (S := S10000x1) origin2]
  obtain ⟨e0, e1, e2, e3, e4, e5⟩ := index_facts t
  funext j
  show k4_pay1 (F := Ideal) (iblk4 V c 0 t) (iblk4 V c 1 t) j
      = reluRowScaled (V c (Pipeline.arrRef spec4 0)) (V c (Pipeline.arrRef spec4 1)) (((cfg4.win 2).blk t).view.emb j)
  have hj0 : (j 0).val < 10000 := (j 0).isLt
  have hj1 : (j 1).val < 32 := (j 1).isLt
  -- the feature block's entry (p, q) is the table's entry at the output block's position
  have h0 : ((cfg4.win 0).blk t).view.emb (ix2 (j 0) (j 1) : S10000x32.Idx) = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 32 + 1 * (j 1).val = win4_2.index t (1 : Fin 2) * 32 + 1 * (j 1).val; omega
  -- the norm block's entry (p, 0) is the column's entry at the output position's row
  have h1 : ((cfg4.win 1).blk t).view.emb (ix2 (j 0) (0 : Fin 1) : S10000x1.Idx)
      = (ix2 ((((cfg4.win 2).blk t).view.emb j) 0) (0 : Fin 1) : S50000x1.Idx) := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  -- the stored value at (p, q), then each factor read at the table position the block entry comes from
  refine ((congrArg (k4_pay1 (F := Ideal) (iblk4 V c 0 t) (iblk4 V c 1 t)) (eq_ix2 j)).trans
    (payload_at (iblk4 V c 0 t) (iblk4 V c 1 t) (j 0) (j 1))).trans ?_
  exact congrArg₂ (fun (x y : Elt Ideal .f32) => max x (FloatOps.ofBits (F := Ideal) .f32 0x00000000#32) * y)
    (congrArg (V c (Pipeline.arrRef spec4 0)) h0) (congrArg (V c (Pipeline.arrRef spec4 1)) h1)

/-- An index of the table is in grid point t's block iff each coordinate is in the block's range on its axis. -/
theorem mem_blk (t : Fin cfg4.N) (i : S50000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v44).slice (win4_2.rect t)).set ↔ _
  rw [View.set_slice_whole, Rect.mem_set_unit]
  exact Iff.rfl

/-- The five blocks cover the table: row r lies in block r / 10000. -/
theorem covered (i : S50000x32.Idx) :
    ∃ t : Fin cfg4.N, (cfg4.win 2).flush t = true ∧ i ∈ ((cfg4.win 2).blk t).view.set := by
  have hi0 : (i 0).val < 50000 := (i 0).isLt
  have hi1 : (i 1).val < 32 := (i 1).isLt
  obtain ⟨t, ht⟩ := block_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- After the five grid points the output array is the row-scaled table of the two input arrays as the kernel
    found them. -/
theorem array_eq (c : Dev nD) :
    (dat4 V c).arrAt 2 cfg4.N = reluRowScaled (V c (Pipeline.arrRef spec4 0)) (V c (Pipeline.arrRef spec4 1)) :=
  (dat4 V c).arrAt_eq_of_cover 2 _ (fun t _ => flushed_eq V c t) covered

end Cert.KernelIdeal.ScaleRows4

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.DenseLayer1.lean ====
/-
  The first dense layer kernel: what its output array holds.

  The kernel walks the [50000, 64] table of aggregated features in five blocks of 10000 rows.  At each block it
  loads the block of features, the matching block of the [50000, 1] norm column, the whole [64, 64] weight matrix
  and the whole [1, 64] bias row.  It spreads each row's one norm entry over the 64 columns, multiplies entrywise,
  multiplies the scaled block by the weight matrix, adds the bias row to every row,
  takes the maximum with zero and stores the block.
  Every row of the table lies in exactly one block (row r in block r / 10000), so after the five points the
  output array is, entry by entry,
      out (r, q) = max (Σ_k (a (r, k) · n (r, 0)) · w (k, q) + b (0, q)) 0.
  This is stated for arbitrary contents of the buffers on entry to the kernel, so that it can be used wherever
  the kernel sits in the program.
-/
import proofs.«112273_j32023276159006_1_alg».proof.Proof.Gen.KernelIdeal.Frame
import proofs.«112273_j32023276159006_1_alg».proof.Proof.LibColumnLayout
import proofs.«112273_j32023276159006_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a two-axis rectangle. -/
theorem origin2 : (![0, 0] : Fin 2 → Nat) = fun _ => 0 := funext fun a => by fin_cases a <;> rfl

/-- The rectified dense layer: each row of the table scaled by that row's entry of the one-column table, times the
    weight matrix, plus the bias row, and the maximum of that with zero. -/
def denseRelu (a : S50000x64.Idx → Elt Ideal .f32) (n : S50000x1.Idx → Elt Ideal .f32) (w : S64x64.Idx → Elt Ideal .f32)
    (b : S1x64.Idx → Elt Ideal .f32) : S50000x64.Idx → Elt Ideal .f32 :=
  fun i => max ((∑ k : Fin 64, (a (ix2 (i 0) k) * n (ix2 (i 0) (0 : Fin 1))) * w (ix2 k (i 1))) + b (ix2 (0 : Fin 1) (i 1))) (FloatOps.ofBits (F := Ideal) .f32 0x00000000#32)

/-- The matrix product's left operand index at output `i`: the output's row. -/
theorem dot_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- … and the contracted coordinate on its second axis. -/
theorem dot_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand index: the contracted coordinate on its first axis … -/
theorem dot_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the output's column. -/
theorem dot_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The scaled block at row p, column k: the feature entry times the row's norm entry. -/
theorem scaled_at (x0 : Vec Ideal S10000x64 .f32) (x1 : Vec Ideal S10000x1 .f32) (p : Fin 10000) (k : Fin 64) :
    mulf (F := Ideal) (φ := .f32) x0 (broadcastTo S10000x64 x1 broadcasts_S10000x1_S10000x64) (ix2 p k)
      = x0 (ix2 p k) * x1 (ix2 p (0 : Fin 1)) := by
  show x0 (ix2 p k) * broadcastTo S10000x64 x1 broadcasts_S10000x1_S10000x64 (ix2 p k) = _
  rw [ColumnLayout.broadcastTo_a1_ab_apply]

/-- The body's stored value at row p, column q of a block. -/
theorem payload_at (x0 : Vec Ideal S10000x64 .f32) (x1 : Vec Ideal S10000x1 .f32) (x2 : Vec Ideal S64x64 .f32)
    (x3 : Vec Ideal S1x64 .f32) (p : Fin 10000) (q : Fin 64) :
    k1_pay1 (F := Ideal) x0 x1 x2 x3 (ix2 p q)
      = max ((∑ k : Fin 64, (x0 (ix2 p k) * x1 (ix2 p (0 : Fin 1))) * x2 (ix2 k q)) + x3 (ix2 (0 : Fin 1) q)) (FloatOps.ofBits (F := Ideal) .f32 0x00000000#32) := by
  unfold k1_pay1
  show max (FloatOps.matmul (F := Ideal) dot_S10000x64_S64x64_S10000x64_1_0_0_1_n_n none
        (truncf (F := Ideal) .bf16 (mulf (F := Ideal) (φ := .f32) (shapeCast S10000x64 x0 shapeCasts_S10000x64_S10000x64)
          (broadcastTo S10000x64 (shapeCast S10000x1 x1 shapeCasts_S10000x1_S10000x1) broadcasts_S10000x1_S10000x64)) bitsLt_bf16_f32)
        (truncf (F := Ideal) (φ := .f32) .bf16 x2 bitsLt_bf16_f32) (constant (F := Ideal) S10000x64 .f32 0x00000000#32) (ix2 p q)
      + broadcastTo S10000x64 (shapeCast S1x64 x3 shapeCasts_S1x64_S1x64) broadcasts_S1x64_S10000x64 (ix2 p q))
      (FloatOps.ofBits (F := Ideal) .f32 0x00000000#32) = _
  rw [shapeCast_self, shapeCast_self, shapeCast_self, Ideal.matmul_constant_zero_apply, broadcastTo_1b_ab_apply,
    PlainDot.sum_contr_eq dot_S10000x64_S64x64_S10000x64_1_0_0_1_n_n rfl rfl dot_l0 dot_l1 dot_r0 dot_r1]
  refine congrArg (fun s => max (s + x3 (ix2 (0 : Fin 1) q)) (FloatOps.ofBits (F := Ideal) .f32 0x00000000#32))
    (Finset.sum_congr rfl fun k _ => ?_)
  exact congrArg (fun s => s * x2 (ix2 k q)) (scaled_at x0 x1 p k)

variable (V : (c : Dev nD) → (b : Ref sig .tc) → Buf (Elt Ideal) ((c : Thread nD τ).loc b))

/-- The block indices over the five grid points: the feature block and the norm block sit at the output block's
    rows, the weight matrix and the bias row are always their one whole block, every column-block index is 0, and
    the row-block index is at most 4. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 4 :=
  (by decide +kernel : ∀ t : Fin grid1.N, _)

/-- Every one of the five row blocks is some grid point's. -/
theorem block_onto : ∀ q0 : Fin 5, ∃ t : Fin cfg1.N, win1_4.index t = ![q0.val, 0] :=
  (by decide +kernel : ∀ q0 : Fin 5, ∃ t : Fin grid1.N, win1_4.index t = ![q0.val, 0])

/-- What grid point t writes back is block t of the dense layer's table. -/
theorem flushed_eq (c : Dev nD) (t : Fin cfg1.N) :
    (dat1 V c).flushed 4 t = ((cfg1.win 4).blk t).view.read (Elt Ideal)
      (denseRelu (V c (Pipeline.arrRef spec1 0)) (V c (Pipeline.arrRef spec1 1)) (V c (Pipeline.arrRef spec1 2))
      (V c (Pipeline.arrRef spec1 3))) := by
  show (cfg1.win 4).cut (grid1.coords t) ((dat1 V c).after 4 t) = _
  rw [after1_4]
  unfold out1_4
  rw [View.canon_unit_zero origin2]
  simp only [View.ld_unit_zero (S := S10000x64) origin2, View.ld_unit_zero (S := S10000x1) origin2,
    View.ld_unit_zero (S := S64x64) origin2, View.ld_unit_zero (S := S1x64) origin2]
  obtain ⟨e0, e1, e2, e3, e4, e5, e6, e7, e8, e9⟩ := index_facts t
  funext j
  show k1_pay1 (F := Ideal) (iblk1 V c 0 t) (iblk1 V c 1 t) (iblk1 V c 2 t) (iblk1 V c 3 t) j
      = denseRelu (V c (Pipeline.arrRef spec1 0)) (V c (Pipeline.arrRef spec1 1)) (V c (Pipeline.arrRef spec1 2))
      (V c (Pipeline.arrRef spec1 3)) (((cfg1.win 4).blk t).view.emb j)
  have hj0 : (j 0).val < 10000 := (j 0).isLt
  have hj1 : (j 1).val < 64 := (j 1).isLt
  -- the feature block's entry (p, k) is the table's entry at the output position's row, column k
  have h0 : ∀ k : Fin 64, ((cfg1.win 0).blk t).view.emb (ix2 (j 0) k : S10000x64.Idx)
      = (ix2 ((((cfg1.win 4).blk t).view.emb j) 0) k : S50000x64.Idx) := by
    intro k; funext a; apply Fin.ext
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * k.val = k.val; omega
  -- the norm block's entry (p, 0) is the column's entry at the output position's row
  have h1 : ((cfg1.win 1).blk t).view.emb (ix2 (j 0) (0 : Fin 1) : S10000x1.Idx)
      = (ix2 ((((cfg1.win 4).blk t).view.emb j) 0) (0 : Fin 1) : S50000x1.Idx) := by
    funext a; apply Fin.ext
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 1 + 1 * 0 = 0; omega
  -- the weight block is the whole matrix: its entry (k, q) is the matrix's entry at row k, the output position's column
  have h2 : ∀ k : Fin 64, ((cfg1.win 2).blk t).view.emb (ix2 k (j 1) : S64x64.Idx)
      = (ix2 k ((((cfg1.win 4).blk t).view.emb j) 1) : S64x64.Idx) := by
    intro k; funext a; apply Fin.ext
    match a with
    | ⟨0, _⟩ => show win1_2.index t (0 : Fin 2) * 64 + 1 * k.val = k.val; omega
    | ⟨1, _⟩ => show win1_2.index t (1 : Fin 2) * 64 + 1 * (j 1).val = win1_4.index t (1 : Fin 2) * 64 + 1 * (j 1).val; omega
  -- the bias block is the whole row: its entry (0, q) is the row's entry at the output position's column
  have h3 : ((cfg1.win 3).blk t).view.emb (ix2 (0 : Fin 1) (j 1) : S1x64.Idx)
      = (ix2 (0 : Fin 1) ((((cfg1.win 4).blk t).view.emb j) 1) : S1x64.Idx) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  -- the stored value at (p, q), then each factor read at the array position the block entry comes from
  refine ((congrArg (k1_pay1 (F := Ideal) (iblk1 V c 0 t) (iblk1 V c 1 t) (iblk1 V c 2 t) (iblk1 V c 3 t)) (eq_ix2 j)).trans
    (payload_at (iblk1 V c 0 t) (iblk1 V c 1 t) (iblk1 V c 2 t) (iblk1 V c 3 t) (j 0) (j 1))).trans ?_
  exact congrArg₂ (fun (s b : Elt Ideal .f32) => max (s + b) (FloatOps.ofBits (F := Ideal) .f32 0x00000000#32))
    (Finset.sum_congr rfl fun k _ => congrArg₂ (fun (x y : Elt Ideal .f32) => x * y)
      (congrArg₂ (fun (x y : Elt Ideal .f32) => x * y) (congrArg (V c (Pipeline.arrRef spec1 0)) (h0 k)) (congrArg (V c (Pipeline.arrRef spec1 1)) h1))
      (congrArg (V c (Pipeline.arrRef spec1 2)) (h2 k)))
    (congrArg (V c (Pipeline.arrRef spec1 3)) h3)

/-- An index of the table is in grid point t's block iff each coordinate is in the block's range on its axis. -/
theorem mem_blk (t : Fin cfg1.N) (i : S50000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v27).slice (win1_4.rect t)).set ↔ _
  rw [View.set_slice_whole, Rect.mem_set_unit]
  exact Iff.rfl

/-- The five blocks cover the table: row r lies in block r / 10000. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := block_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- After the five grid points the output array is the dense layer's table of the four input arrays as the kernel
    found them. -/
theorem array_eq (c : Dev nD) :
    (dat1 V c).arrAt 4 cfg1.N = denseRelu (V c (Pipeline.arrRef spec1 0)) (V c (Pipeline.arrRef spec1 1)) (V c (Pipeline.arrRef spec1 2))
      (V c (Pipeline.arrRef spec1 3)) :=
  (dat1 V c).arrAt_eq_of_cover 4 _ (fun t _ => flushed_eq V c t) covered

end Cert.KernelIdeal.Dense1

end
-- ==== Proof.DenseLayer3.lean ====
/-
  The second dense layer kernel: what its output array holds.

  The kernel walks the [50000, 64] table of aggregated features in five blocks of 10000 rows.  At each block it
  loads the block of features, the matching block of the [50000, 1] norm column, the whole [64, 32] weight matrix
  and the whole [1, 32] bias row.  It spreads each row's one norm entry over the 64 columns, multiplies entrywise,
  multiplies the scaled block by the weight matrix, adds the bias row to every row and stores the block.
  Every row of the table lies in exactly one block (row r in block r / 10000), so after the five points the
  output array is, entry by entry,
      out (r, q) = Σ_k (a (r, k) · n (r, 0)) · w (k, q) + b (0, q).
  This is stated for arbitrary contents of the buffers on entry to the kernel, so that it can be used wherever
  the kernel sits in the program.
-/
import proofs.«112273_j32023276159006_1_alg».proof.Proof.Gen.KernelIdeal.Frame
import proofs.«112273_j32023276159006_1_alg».proof.Proof.LibColumnLayout
import proofs.«112273_j32023276159006_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a two-axis rectangle. -/
theorem origin2 : (![0, 0] : Fin 2 → Nat) = fun _ => 0 := funext fun a => by fin_cases a <;> rfl

/-- The dense layer: each row of the table scaled by that row's entry of the one-column table, times the
    weight matrix, plus the bias row. -/
def dense (a : S50000x64.Idx → Elt Ideal .f32) (n : S50000x1.Idx → Elt Ideal .f32) (w : S64x32.Idx → Elt Ideal .f32)
    (b : S1x32.Idx → Elt Ideal .f32) : S50000x32.Idx → Elt Ideal .f32 :=
  fun i => (∑ k : Fin 64, (a (ix2 (i 0) k) * n (ix2 (i 0) (0 : Fin 1))) * w (ix2 k (i 1))) + b (ix2 (0 : Fin 1) (i 1))

/-- The layer's table read at an index. -/
theorem dense_apply (a : S50000x64.Idx → Elt Ideal .f32) (n : S50000x1.Idx → Elt Ideal .f32) (w : S64x32.Idx → Elt Ideal .f32)
    (b : S1x32.Idx → Elt Ideal .f32) (i : S50000x32.Idx) :
    dense a n w b i = (∑ k : Fin 64, (a (ix2 (i 0) k) * n (ix2 (i 0) (0 : Fin 1))) * w (ix2 k (i 1))) + b (ix2 (0 : Fin 1) (i 1)) := rfl

/-- The matrix product's left operand index at output `i`: the output's row. -/
theorem dot_l0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide),
    dif_pos (show (0 : Fin S10000x64.rank) ∈ dot_S10000x64_S64x32_S10000x32_1_0_0_1_n_n.lhsNonContracting by decide)]
  rfl
/-- … and the contracted coordinate on its second axis. -/
theorem dot_l1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand index: the contracted coordinate on its first axis … -/
theorem dot_r0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- … and the output's column. -/
theorem dot_r1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide),
    dif_pos (show (1 : Fin S64x32.rank) ∈ dot_S10000x64_S64x32_S10000x32_1_0_0_1_n_n.rhsNonContracting by decide)]
  rfl

/-- The scaled block at row p, column k: the feature entry times the row's norm entry. -/
theorem scaled_at (x0 : Vec Ideal S10000x64 .f32) (x1 : Vec Ideal S10000x1 .f32) (p : Fin 10000) (k : Fin 64) :
    mulf (F := Ideal) (φ := .f32) x0 (broadcastTo S10000x64 x1 broadcasts_S10000x1_S10000x64) (ix2 p k)
      = x0 (ix2 p k) * x1 (ix2 p (0 : Fin 1)) := by
  show x0 (ix2 p k) * broadcastTo S10000x64 x1 broadcasts_S10000x1_S10000x64 (ix2 p k) = _
  rw [ColumnLayout.broadcastTo_a1_ab_apply]

/-- The body's stored value at row p, column q of a block. -/
theorem payload_at (x0 : Vec Ideal S10000x64 .f32) (x1 : Vec Ideal S10000x1 .f32) (x2 : Vec Ideal S64x32 .f32)
    (x3 : Vec Ideal S1x32 .f32) (p : Fin 10000) (q : Fin 32) :
    k3_pay1 (F := Ideal) x0 x1 x2 x3 (ix2 p q)
      = (∑ k : Fin 64, (x0 (ix2 p k) * x1 (ix2 p (0 : Fin 1))) * x2 (ix2 k q)) + x3 (ix2 (0 : Fin 1) q) := by
  unfold k3_pay1
  show FloatOps.matmul (F := Ideal) dot_S10000x64_S64x32_S10000x32_1_0_0_1_n_n none
        (truncf (F := Ideal) .bf16 (mulf (F := Ideal) (φ := .f32) (shapeCast S10000x64 x0 shapeCasts_S10000x64_S10000x64)
          (broadcastTo S10000x64 (shapeCast S10000x1 x1 shapeCasts_S10000x1_S10000x1) broadcasts_S10000x1_S10000x64)) bitsLt_bf16_f32)
        (truncf (F := Ideal) (φ := .f32) .bf16 x2 bitsLt_bf16_f32) (constant (F := Ideal) S10000x32 .f32 0x00000000#32) (ix2 p q)
      + broadcastTo S10000x32 (shapeCast S1x32 x3 shapeCasts_S1x32_S1x32) broadcasts_S1x32_S10000x32 (ix2 p q) = _
  rw [shapeCast_self, shapeCast_self, shapeCast_self, Ideal.matmul_constant_zero_apply, broadcastTo_1b_ab_apply,
    PlainDot.sum_contr_eq dot_S10000x64_S64x32_S10000x32_1_0_0_1_n_n rfl rfl dot_l0 dot_l1 dot_r0 dot_r1]
  refine congrArg (fun s => s + x3 (ix2 (0 : Fin 1) q))
    (Finset.sum_congr rfl fun k _ => ?_)
  exact congrArg (fun s => s * x2 (ix2 k q)) (scaled_at x0 x1 p k)

/-- If the four blocks agree with four tables at the entries the layer reads for position `i` — the feature block's
    row p with the table's row `i 0`, the norm block's row p with the column's row `i 0`, the weight block with the
    matrix's column `i 1`, the bias block with the row's column `i 1` — the stored value at (p, q) is the layer's
    table at `i`. -/
theorem payload_of_reads (a : S50000x64.Idx → Elt Ideal .f32) (n : S50000x1.Idx → Elt Ideal .f32)
    (w : S64x32.Idx → Elt Ideal .f32) (b : S1x32.Idx → Elt Ideal .f32)
    (x0 : Vec Ideal S10000x64 .f32) (x1 : Vec Ideal S10000x1 .f32) (x2 : Vec Ideal S64x32 .f32) (x3 : Vec Ideal S1x32 .f32)
    (i : S50000x32.Idx) (p : Fin 10000) (q : Fin 32)
    (h0 : ∀ k : Fin 64, x0 (ix2 p k) = a (ix2 (i 0) k)) (h1 : x1 (ix2 p (0 : Fin 1)) = n (ix2 (i 0) (0 : Fin 1)))
    (h2 : ∀ k : Fin 64, x2 (ix2 k q) = w (ix2 k (i 1))) (h3 : x3 (ix2 (0 : Fin 1) q) = b (ix2 (0 : Fin 1) (i 1))) :
    k3_pay1 (F := Ideal) x0 x1 x2 x3 (ix2 p q) = dense a n w b i := by
  rw [payload_at, dense_apply, h1, h3]
  refine congrArg (fun s => s + b (ix2 (0 : Fin 1) (i 1)))
    (Finset.sum_congr rfl fun k _ => ?_)
  rw [h0 k, h2 k]

variable (V : (c : Dev nD) → (b : Ref sig .tc) → Buf (Elt Ideal) ((c : Thread nD τ).loc b))

/-- The block indices over the five grid points: the feature block and the norm block sit at the output block's
    rows, the weight matrix and the bias row are always their one whole block, every column-block index is 0, and
    the row-block index is at most 4. -/
theorem index_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 4 :=
  (by decide +kernel : ∀ t : Fin grid3.N, _)

/-- Every one of the five row blocks is some grid point's. -/
theorem block_onto : ∀ q0 : Fin 5, ∃ t : Fin cfg3.N, win3_4.index t = ![q0.val, 0] :=
  (by decide +kernel : ∀ q0 : Fin 5, ∃ t : Fin grid3.N, win3_4.index t = ![q0.val, 0])

set_option maxHeartbeats 2000000 in
/-- What grid point t writes back is block t of the dense layer's table. -/
theorem flushed_eq (c : Dev nD) (t : Fin cfg3.N) :
    (dat3 V c).flushed 4 t = ((cfg3.win 4).blk t).view.read (Elt Ideal)
      (dense (V c (Pipeline.arrRef spec3 0)) (V c (Pipeline.arrRef spec3 1)) (V c (Pipeline.arrRef spec3 2))
      (V c (Pipeline.arrRef spec3 3))) := by
  show (cfg3.win 4).cut (grid3.coords t) ((dat3 V c).after 4 t) = _
  rw [after3_4]
  unfold out3_4
  rw [View.canon_unit_zero origin2]
  simp only [View.ld_unit_zero (S := S10000x64) origin2, View.ld_unit_zero (S := S10000x1) origin2,
    View.ld_unit_zero (S := S64x32) origin2, View.ld_unit_zero (S := S1x32) origin2]
  obtain ⟨e0, e1, e2, e3, e4, e5, e6, e7, e8, e9⟩ := index_facts t
  funext j
  show k3_pay1 (F := Ideal) (iblk3 V c 0 t) (iblk3 V c 1 t) (iblk3 V c 2 t) (iblk3 V c 3 t) j
      = dense (V c (Pipeline.arrRef spec3 0)) (V c (Pipeline.arrRef spec3 1)) (V c (Pipeline.arrRef spec3 2))
      (V c (Pipeline.arrRef spec3 3)) (((cfg3.win 4).blk t).view.emb j)
  have hj0 : (j 0).val < 10000 := (j 0).isLt
  have hj1 : (j 1).val < 32 := (j 1).isLt
  -- the feature block's entry (p, k) is the table's entry at the output position's row, column k
  have h0 : ∀ k : Fin 64, ((cfg3.win 0).blk t).view.emb (ix2 (j 0) k : S10000x64.Idx)
      = (ix2 ((((cfg3.win 4).blk t).view.emb j) 0) k : S50000x64.Idx) := by
    intro k; funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * k.val = k.val; omega
  -- the norm block's entry (p, 0) is the column's entry at the output position's row
  have h1 : ((cfg3.win 1).blk t).view.emb (ix2 (j 0) (0 : Fin 1) : S10000x1.Idx)
      = (ix2 ((((cfg3.win 4).blk t).view.emb j) 0) (0 : Fin 1) : S50000x1.Idx) := by
    funext a; apply Fin.ext
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 1 + 1 * 0 = 0; omega
  -- the weight block is the whole matrix: its entry (k, q) is the matrix's entry at row k, the output position's column
  have h2 : ∀ k : Fin 64, ((cfg3.win 2).blk t).view.emb (ix2 k (j 1) : S64x32.Idx)
      = (ix2 k ((((cfg3.win 4).blk t).view.emb j) 1) : S64x32.Idx) := by
    intro k; funext a; apply Fin.ext
    match a with
    | ⟨0, _⟩ => show win3_2.index t (0 : Fin 2) * 64 + 1 * k.val = k.val; omega
    | ⟨1, _⟩ => show win3_2.index t (1 : Fin 2) * 32 + 1 * (j 1).val = win3_4.index t (1 : Fin 2) * 32 + 1 * (j 1).val; omega
  -- the bias block is the whole row: its entry (0, q) is the row's entry at the output position's column
  have h3 : ((cfg3.win 3).blk t).view.emb (ix2 (0 : Fin 1) (j 1) : S1x32.Idx)
      = (ix2 (0 : Fin 1) ((((cfg3.win 4).blk t).view.emb j) 1) : S1x32.Idx) := by
    funext a; apply Fin.ext
    match a with
    | ⟨0, _⟩ => show win3_3.index t (0 : Fin 2) * 1 + 1 * 0 = 0; omega
    | ⟨1, _⟩ => show win3_3.index t (1 : Fin 2) * 32 + 1 * (j 1).val = win3_4.index t (1 : Fin 2) * 32 + 1 * (j 1).val; omega
  -- the stored value at (p, q), with each block entry read at the array position it comes from
  refine (congrArg (k3_pay1 (F := Ideal) (iblk3 V c 0 t) (iblk3 V c 1 t) (iblk3 V c 2 t) (iblk3 V c 3 t)) (eq_ix2 j)).trans ?_
  exact payload_of_reads (V c (Pipeline.arrRef spec3 0)) (V c (Pipeline.arrRef spec3 1)) (V c (Pipeline.arrRef spec3 2))
    (V c (Pipeline.arrRef spec3 3)) (iblk3 V c 0 t) (iblk3 V c 1 t) (iblk3 V c 2 t) (iblk3 V c 3 t)
    (((cfg3.win 4).blk t).view.emb j) (j 0) (j 1)
    (fun k => congrArg (V c (Pipeline.arrRef spec3 0)) (h0 k)) (congrArg (V c (Pipeline.arrRef spec3 1)) h1)
    (fun k => congrArg (V c (Pipeline.arrRef spec3 2)) (h2 k)) (congrArg (V c (Pipeline.arrRef spec3 3)) h3)

/-- An index of the table is in grid point t's block iff each coordinate is in the block's range on its axis. -/
theorem mem_blk (t : Fin cfg3.N) (i : S50000x32.Idx) :
    i ∈ ((cfg3.win 4).blk t).view.set ↔ ∀ a : Fin 2, win3_4.index t a * S10000x32.size a ≤ (i a).val
      ∧ (i a).val < win3_4.index t a * S10000x32.size a + S10000x32.size a := by
  show i ∈ ((View.whole main_v42).slice (win3_4.rect t)).set ↔ _
  rw [View.set_slice_whole, Rect.mem_set_unit]
  exact Iff.rfl

/-- The five blocks cover the table: row r lies in block r / 10000. -/
theorem covered (i : S50000x32.Idx) :
    ∃ t : Fin cfg3.N, (cfg3.win 4).flush t = true ∧ i ∈ ((cfg3.win 4).blk t).view.set := by
  have hi0 : (i 0).val < 50000 := (i 0).isLt
  have hi1 : (i 1).val < 32 := (i 1).isLt
  obtain ⟨t, ht⟩ := block_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 32 ≤ (i 1).val ∧ (i 1).val < win3_4.index t (1 : Fin 2) * 32 + 32; omega

/-- After the five grid points the output array is the dense layer's table of the four input arrays as the kernel
    found them. -/
theorem array_eq (c : Dev nD) :
    (dat3 V c).arrAt 4 cfg3.N = dense (V c (Pipeline.arrRef spec3 0)) (V c (Pipeline.arrRef spec3 1)) (V c (Pipeline.arrRef spec3 2))
      (V c (Pipeline.arrRef spec3 3)) :=
  (dat3 V c).arrAt_eq_of_cover 4 _ (fun t _ => flushed_eq V c t) covered

end Cert.KernelIdeal.Dense3

end
-- ==== Proof.DenseLayer5.lean ====
/-
  The third dense layer kernel: what its output array holds.

  The kernel walks the [50000, 32] table of aggregated features in five blocks of 10000 rows.  At each block it
  loads the block of features, the matching block of the [50000, 1] norm column, the whole [32, 16] weight matrix
  and the whole [1, 16] bias row.  It spreads each row's one norm entry over the 32 columns, multiplies entrywise,
  multiplies the scaled block by the weight matrix, adds the bias row to every row and stores the block.
  Every row of the table lies in exactly one block (row r in block r / 10000), so after the five points the
  output array is, entry by entry,
      out (r, q) = Σ_k (a (r, k) · n (r, 0)) · w (k, q) + b (0, q).
  This is stated for arbitrary contents of the buffers on entry to the kernel, so that it can be used wherever
  the kernel sits in the program.
-/
import proofs.«112273_j32023276159006_1_alg».proof.Proof.Gen.KernelIdeal.Frame
import proofs.«112273_j32023276159006_1_alg».proof.Proof.LibColumnLayout
import proofs.«112273_j32023276159006_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense5

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a two-axis rectangle. -/
theorem origin2 : (![0, 0] : Fin 2 → Nat) = fun _ => 0 := funext fun a => by fin_cases a <;> rfl

/-- The dense layer: each row of the table scaled by that row's entry of the one-column table, times the
    weight matrix, plus the bias row. -/
def dense (a : S50000x32.Idx → Elt Ideal .f32) (n : S50000x1.Idx → Elt Ideal .f32) (w : S32x16.Idx → Elt Ideal .f32)
    (b : S1x16.Idx → Elt Ideal .f32) : S50000x16.Idx → Elt Ideal .f32 :=
  fun i => (∑ k : Fin 32, (a (ix2 (i 0) k) * n (ix2 (i 0) (0 : Fin 1))) * w (ix2 k (i 1))) + b (ix2 (0 : Fin 1) (i 1))

/-- The layer's table read at an index. -/
theorem dense_apply (a : S50000x32.Idx → Elt Ideal .f32) (n : S50000x1.Idx → Elt Ideal .f32) (w : S32x16.Idx → Elt Ideal .f32)
    (b : S1x16.Idx → Elt Ideal .f32) (i : S50000x16.Idx) :
    dense a n w b i = (∑ k : Fin 32, (a (ix2 (i 0) k) * n (ix2 (i 0) (0 : Fin 1))) * w (ix2 k (i 1))) + b (ix2 (0 : Fin 1) (i 1)) := rfl

/-- The matrix product's left operand index at output `i`: the output's row. -/
theorem dot_l0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide),
    dif_pos (show (0 : Fin S10000x32.rank) ∈ dot_S10000x32_S32x16_S10000x16_1_0_0_1_n_n.lhsNonContracting by decide)]
  rfl
/-- … and the contracted coordinate on its second axis. -/
theorem dot_l1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
/-- The right operand index: the contracted coordinate on its first axis … -/
theorem dot_r0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
/-- … and the output's column. -/
theorem dot_r1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide),
    dif_pos (show (1 : Fin S32x16.rank) ∈ dot_S10000x32_S32x16_S10000x16_1_0_0_1_n_n.rhsNonContracting by decide)]
  rfl

/-- The scaled block at row p, column k: the feature entry times the row's norm entry. -/
theorem scaled_at (x0 : Vec Ideal S10000x32 .f32) (x1 : Vec Ideal S10000x1 .f32) (p : Fin 10000) (k : Fin 32) :
    mulf (F := Ideal) (φ := .f32) x0 (broadcastTo S10000x32 x1 broadcasts_S10000x1_S10000x32) (ix2 p k)
      = x0 (ix2 p k) * x1 (ix2 p (0 : Fin 1)) := by
  show x0 (ix2 p k) * broadcastTo S10000x32 x1 broadcasts_S10000x1_S10000x32 (ix2 p k) = _
  rw [ColumnLayout.broadcastTo_a1_ab_apply]

/-- The body's stored value at row p, column q of a block. -/
theorem payload_at (x0 : Vec Ideal S10000x32 .f32) (x1 : Vec Ideal S10000x1 .f32) (x2 : Vec Ideal S32x16 .f32)
    (x3 : Vec Ideal S1x16 .f32) (p : Fin 10000) (q : Fin 16) :
    k5_pay1 (F := Ideal) x0 x1 x2 x3 (ix2 p q)
      = (∑ k : Fin 32, (x0 (ix2 p k) * x1 (ix2 p (0 : Fin 1))) * x2 (ix2 k q)) + x3 (ix2 (0 : Fin 1) q) := by
  unfold k5_pay1
  show FloatOps.matmul (F := Ideal) dot_S10000x32_S32x16_S10000x16_1_0_0_1_n_n none
        (truncf (F := Ideal) .bf16 (mulf (F := Ideal) (φ := .f32) (shapeCast S10000x32 x0 shapeCasts_S10000x32_S10000x32)
          (broadcastTo S10000x32 (shapeCast S10000x1 x1 shapeCasts_S10000x1_S10000x1) broadcasts_S10000x1_S10000x32)) bitsLt_bf16_f32)
        (truncf (F := Ideal) (φ := .f32) .bf16 x2 bitsLt_bf16_f32) (constant (F := Ideal) S10000x16 .f32 0x00000000#32) (ix2 p q)
      + broadcastTo S10000x16 (shapeCast S1x16 x3 shapeCasts_S1x16_S1x16) broadcasts_S1x16_S10000x16 (ix2 p q) = _
  rw [shapeCast_self, shapeCast_self, shapeCast_self, Ideal.matmul_constant_zero_apply, broadcastTo_1b_ab_apply,
    PlainDot.sum_contr_eq dot_S10000x32_S32x16_S10000x16_1_0_0_1_n_n rfl rfl dot_l0 dot_l1 dot_r0 dot_r1]
  refine congrArg (fun s => s + x3 (ix2 (0 : Fin 1) q))
    (Finset.sum_congr rfl fun k _ => ?_)
  exact congrArg (fun s => s * x2 (ix2 k q)) (scaled_at x0 x1 p k)

/-- If the four blocks agree with four tables at the entries the layer reads for position `i` — the feature block's
    row p with the table's row `i 0`, the norm block's row p with the column's row `i 0`, the weight block with the
    matrix's column `i 1`, the bias block with the row's column `i 1` — the stored value at (p, q) is the layer's
    table at `i`. -/
theorem payload_of_reads (a : S50000x32.Idx → Elt Ideal .f32) (n : S50000x1.Idx → Elt Ideal .f32)
    (w : S32x16.Idx → Elt Ideal .f32) (b : S1x16.Idx → Elt Ideal .f32)
    (x0 : Vec Ideal S10000x32 .f32) (x1 : Vec Ideal S10000x1 .f32) (x2 : Vec Ideal S32x16 .f32) (x3 : Vec Ideal S1x16 .f32)
    (i : S50000x16.Idx) (p : Fin 10000) (q : Fin 16)
    (h0 : ∀ k : Fin 32, x0 (ix2 p k) = a (ix2 (i 0) k)) (h1 : x1 (ix2 p (0 : Fin 1)) = n (ix2 (i 0) (0 : Fin 1)))
    (h2 : ∀ k : Fin 32, x2 (ix2 k q) = w (ix2 k (i 1))) (h3 : x3 (ix2 (0 : Fin 1) q) = b (ix2 (0 : Fin 1) (i 1))) :
    k5_pay1 (F := Ideal) x0 x1 x2 x3 (ix2 p q) = dense a n w b i := by
  rw [payload_at, dense_apply, h1, h3]
  refine congrArg (fun s => s + b (ix2 (0 : Fin 1) (i 1)))
    (Finset.sum_congr rfl fun k _ => ?_)
  rw [h0 k, h2 k]

variable (V : (c : Dev nD) → (b : Ref sig .tc) → Buf (Elt Ideal) ((c : Thread nD τ).loc b))

/-- The block indices over the five grid points: the feature block and the norm block sit at the output block's
    rows, the weight matrix and the bias row are always their one whole block, every column-block index is 0, and
    the row-block index is at most 4. -/
theorem index_facts : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 4 :=
  (by decide +kernel : ∀ t : Fin grid5.N, _)

/-- Every one of the five row blocks is some grid point's. -/
theorem block_onto : ∀ q0 : Fin 5, ∃ t : Fin cfg5.N, win5_4.index t = ![q0.val, 0] :=
  (by decide +kernel : ∀ q0 : Fin 5, ∃ t : Fin grid5.N, win5_4.index t = ![q0.val, 0])

set_option maxHeartbeats 2000000 in
/-- What grid point t writes back is block t of the dense layer's table. -/
theorem flushed_eq (c : Dev nD) (t : Fin cfg5.N) :
    (dat5 V c).flushed 4 t = ((cfg5.win 4).blk t).view.read (Elt Ideal)
      (dense (V c (Pipeline.arrRef spec5 0)) (V c (Pipeline.arrRef spec5 1)) (V c (Pipeline.arrRef spec5 2))
      (V c (Pipeline.arrRef spec5 3))) := by
  show (cfg5.win 4).cut (grid5.coords t) ((dat5 V c).after 4 t) = _
  rw [after5_4]
  unfold out5_4
  rw [View.canon_unit_zero origin2]
  simp only [View.ld_unit_zero (S := S10000x32) origin2, View.ld_unit_zero (S := S10000x1) origin2,
    View.ld_unit_zero (S := S32x16) origin2, View.ld_unit_zero (S := S1x16) origin2]
  obtain ⟨e0, e1, e2, e3, e4, e5, e6, e7, e8, e9⟩ := index_facts t
  funext j
  show k5_pay1 (F := Ideal) (iblk5 V c 0 t) (iblk5 V c 1 t) (iblk5 V c 2 t) (iblk5 V c 3 t) j
      = dense (V c (Pipeline.arrRef spec5 0)) (V c (Pipeline.arrRef spec5 1)) (V c (Pipeline.arrRef spec5 2))
      (V c (Pipeline.arrRef spec5 3)) (((cfg5.win 4).blk t).view.emb j)
  have hj0 : (j 0).val < 10000 := (j 0).isLt
  have hj1 : (j 1).val < 16 := (j 1).isLt
  -- the feature block's entry (p, k) is the table's entry at the output position's row, column k
  have h0 : ∀ k : Fin 32, ((cfg5.win 0).blk t).view.emb (ix2 (j 0) k : S10000x32.Idx)
      = (ix2 ((((cfg5.win 4).blk t).view.emb j) 0) k : S50000x32.Idx) := by
    intro k; funext a; apply Fin.ext
    match a with
    | ⟨0, _⟩ => show win5_0.index t (0 : Fin 2) * 10000 + 1 * (j 0).val = win5_4.index t (0 : Fin 2) * 10000 + 1 * (j 0).val; omega
    | ⟨1, _⟩ => show win5_0.index t (1 : Fin 2) * 32 + 1 * k.val = k.val; omega
  -- the norm block's entry (p, 0) is the column's entry at the output position's row
  have h1 : ((cfg5.win 1).blk t).view.emb (ix2 (j 0) (0 : Fin 1) : S10000x1.Idx)
      = (ix2 ((((cfg5.win 4).blk t).view.emb j) 0) (0 : Fin 1) : S50000x1.Idx) := by
    funext a; apply Fin.ext
    match a with
    | ⟨0, _⟩ => show win5_1.index t (0 : Fin 2) * 10000 + 1 * (j 0).val = win5_4.index t (0 : Fin 2) * 10000 + 1 * (j 0).val; omega
    | ⟨1, _⟩ => show win5_1.index t (1 : Fin 2) * 1 + 1 * 0 = 0; omega
  -- the weight block is the whole matrix: its entry (k, q) is the matrix's entry at row k, the output position's column
  have h2 : ∀ k : Fin 32, ((cfg5.win 2).blk t).view.emb (ix2 k (j 1) : S32x16.Idx)
      = (ix2 k ((((cfg5.win 4).blk t).view.emb j) 1) : S32x16.Idx) := by
    intro k; funext a; apply Fin.ext
    match a with
    | ⟨0, _⟩ => show win5_2.index t (0 : Fin 2) * 32 + 1 * k.val = k.val; omega
    | ⟨1, _⟩ => show win5_2.index t (1 : Fin 2) * 16 + 1 * (j 1).val = win5_4.index t (1 : Fin 2) * 16 + 1 * (j 1).val; omega
  -- the bias block is the whole row: its entry (0, q) is the row's entry at the output position's column
  have h3 : ((cfg5.win 3).blk t).view.emb (ix2 (0 : Fin 1) (j 1) : S1x16.Idx)
      = (ix2 (0 : Fin 1) ((((cfg5.win 4).blk t).view.emb j) 1) : S1x16.Idx) := by
    funext a; apply Fin.ext
    match a with
    | ⟨0, _⟩ => show win5_3.index t (0 : Fin 2) * 1 + 1 * 0 = 0; omega
    | ⟨1, _⟩ => show win5_3.index t (1 : Fin 2) * 16 + 1 * (j 1).val = win5_4.index t (1 : Fin 2) * 16 + 1 * (j 1).val; omega
  -- the stored value at (p, q), with each block entry read at the array position it comes from
  refine (congrArg (k5_pay1 (F := Ideal) (iblk5 V c 0 t) (iblk5 V c 1 t) (iblk5 V c 2 t) (iblk5 V c 3 t)) (eq_ix2 j)).trans ?_
  exact payload_of_reads (V c (Pipeline.arrRef spec5 0)) (V c (Pipeline.arrRef spec5 1)) (V c (Pipeline.arrRef spec5 2))
    (V c (Pipeline.arrRef spec5 3)) (iblk5 V c 0 t) (iblk5 V c 1 t) (iblk5 V c 2 t) (iblk5 V c 3 t)
    (((cfg5.win 4).blk t).view.emb j) (j 0) (j 1)
    (fun k => congrArg (V c (Pipeline.arrRef spec5 0)) (h0 k)) (congrArg (V c (Pipeline.arrRef spec5 1)) h1)
    (fun k => congrArg (V c (Pipeline.arrRef spec5 2)) (h2 k)) (congrArg (V c (Pipeline.arrRef spec5 3)) h3)

/-- An index of the table is in grid point t's block iff each coordinate is in the block's range on its axis. -/
theorem mem_blk (t : Fin cfg5.N) (i : S50000x16.Idx) :
    i ∈ ((cfg5.win 4).blk t).view.set ↔ ∀ a : Fin 2, win5_4.index t a * S10000x16.size a ≤ (i a).val
      ∧ (i a).val < win5_4.index t a * S10000x16.size a + S10000x16.size a := by
  show i ∈ ((View.whole main_v57).slice (win5_4.rect t)).set ↔ _
  rw [View.set_slice_whole, Rect.mem_set_unit]
  exact Iff.rfl

/-- The five blocks cover the table: row r lies in block r / 10000. -/
theorem covered (i : S50000x16.Idx) :
    ∃ t : Fin cfg5.N, (cfg5.win 4).flush t = true ∧ i ∈ ((cfg5.win 4).blk t).view.set := by
  have hi0 : (i 0).val < 50000 := (i 0).isLt
  have hi1 : (i 1).val < 16 := (i 1).isLt
  obtain ⟨t, ht⟩ := block_onto ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 16 ≤ (i 1).val ∧ (i 1).val < win5_4.index t (1 : Fin 2) * 16 + 16; omega

/-- After the five grid points the output array is the dense layer's table of the four input arrays as the kernel
    found them. -/
theorem array_eq (c : Dev nD) :
    (dat5 V c).arrAt 4 cfg5.N = dense (V c (Pipeline.arrRef spec5 0)) (V c (Pipeline.arrRef spec5 1)) (V c (Pipeline.arrRef spec5 2))
      (V c (Pipeline.arrRef spec5 3)) :=
  (dat5 V c).arrAt_eq_of_cover 4 _ (fun t _ => flushed_eq V c t) covered

end Cert.KernelIdeal.Dense5

end
-- ==== Proof.Layers.lean ====
/-
  What the kernel program's buffers hold, boundary by boundary, in the reference's own terms.

  Both programs compute a three-layer graph convolution.  Write n_s, n_d for the two degree norms
  (the reciprocal square root of max (degree, 1), by source and by destination), and for a table x
      agg (x) = the sum over the edges into each node of x at the edge's source
  (a gather of rows followed by a scatter-add: one and the same pair of host operations in both programs).
  One layer is   y = (agg (x · n_s) · n_d) W + b,   the rows scaled by n_s before and by n_d after aggregating.
  The reference does all of it with host operations.  The kernel program does the two row scalings and the
  dense part in six kernel regions, with the same host operations in between, and folds an activation
  max (·, 0) into the end of the first dense region and the start of the third scaling region.

  Walking up the chain of boundary contents W0, …, W12, each buffer that matters is shown to hold a stage of the
  reference evaluated at the kernel program's own arguments:
    a stretch of host operations is the same operations as the reference's, so once the buffers it reads are
      known to hold reference stages, what it writes is the next stage by unfolding both sides;
    a kernel region's output array is its closed form (proved per region) of its input arrays, and that closed
      form, entry by entry, is the reference stage read at an index — the norm column is the norm vector recast
      as [50000, 1] and the bias row the bias vector recast as [1, d].
  The last two facts are the program's two results.
-/
import proofs.«112273_j32023276159006_1_alg».proof.Proof.Gen.KernelIdeal.Frame
import proofs.«112273_j32023276159006_1_alg».proof.Proof.Gen.ReferenceIdeal.Read
import proofs.«112273_j32023276159006_1_alg».proof.Proof.RefStages
import proofs.«112273_j32023276159006_1_alg».proof.Proof.Kept
import proofs.«112273_j32023276159006_1_alg».proof.Proof.ScaleRows0
import proofs.«112273_j32023276159006_1_alg».proof.Proof.ScaleRows2
import proofs.«112273_j32023276159006_1_alg».proof.Proof.ScaleRows4
import proofs.«112273_j32023276159006_1_alg».proof.Proof.DenseLayer1
import proofs.«112273_j32023276159006_1_alg».proof.Proof.DenseLayer3
import proofs.«112273_j32023276159006_1_alg».proof.Proof.DenseLayer5
import proofs.«112273_j32023276159006_1_alg».proof.Proof.LibColumnLayout
import Idealize.ShloMosaic.Lib.ValueLayout
import Idealize.ShloMosaic.Lib.ValueIdx

set_option maxRecDepth 16384

noncomputable section

namespace Cert.KernelIdeal.Layers

open Cert.KernelIdeal Cert.KernelIdeal.Gen
open Cert.ReferenceIdeal.Read Cert.ReferenceIdeal.Stages
open Idealize.ShloMosaic Idealize.ShloMosaic.TcCoe Idealize.SL.Sem Idealize.ShloMosaic.StableHlo Idealize.ShloMosaic.ValueIdx
open Cert.KernelIdeal.Kept (IsArg IsKept)
open scoped BigOperators

variable (m : (ℓ : Loc nD τ sig) → Buf (Elt Ideal) ℓ) (ρ : Dev nD → PrngReg) (c : Dev nD)

theorem isArg0 : IsArg main_arg0 := Or.inl rfl
theorem isArg1 : IsArg main_arg1 := Or.inr (Or.inl rfl)
theorem isArg2 : IsArg main_arg2 := Or.inr (Or.inr (Or.inl rfl))
theorem isArg3 : IsArg main_arg3 := Or.inr (Or.inr (Or.inr (Or.inl rfl)))
theorem isArg4 : IsArg main_arg4 := Or.inr (Or.inr (Or.inr (Or.inr (Or.inl rfl))))
theorem isArg5 : IsArg main_arg5 := Or.inr (Or.inr (Or.inr (Or.inr (Or.inr (Or.inl rfl)))))
theorem isArg6 : IsArg main_arg6 := Or.inr (Or.inr (Or.inr (Or.inr (Or.inr (Or.inr (Or.inl rfl))))))
theorem isArg7 : IsArg main_arg7 := Or.inr (Or.inr (Or.inr (Or.inr (Or.inr (Or.inr (Or.inr (Or.inl rfl)))))))
theorem isArg8 : IsArg main_arg8 := Or.inr (Or.inr (Or.inr (Or.inr (Or.inr (Or.inr (Or.inr (Or.inr rfl)))))))
theorem isKeptSrc : IsKept main_v9 := Or.inr (Or.inl rfl)
theorem isKeptDst : IsKept main_v12 := Or.inr (Or.inr rfl)

/-! ## The arguments, wherever they are read -/

theorem args_at2 (b : Ref sig .tc) (hb : IsArg b) : W2 m ρ c (Proc.devRef .tc b) = m ((c : Thread nD τ).loc b) :=
  (Kept.kept2 m ρ c b (Or.inl hb)).trans (Kept.arg_at1 m ρ c b hb)
theorem args_at3 (b : Ref sig .tc) (hb : IsArg b) : W3 m ρ c (Proc.devRef .tc b) = m ((c : Thread nD τ).loc b) :=
  (Kept.kept3 m ρ c b (Or.inl hb)).trans (Kept.arg_at1 m ρ c b hb)
theorem args_at6 (b : Ref sig .tc) (hb : IsArg b) : W6 m ρ c (Proc.devRef .tc b) = m ((c : Thread nD τ).loc b) :=
  (Kept.kept6 m ρ c b (Or.inl hb)).trans (Kept.arg_at1 m ρ c b hb)
theorem args_at7 (b : Ref sig .tc) (hb : IsArg b) : W7 m ρ c (Proc.devRef .tc b) = m ((c : Thread nD τ).loc b) :=
  (Kept.kept7 m ρ c b (Or.inl hb)).trans (Kept.arg_at1 m ρ c b hb)
theorem args_at10 (b : Ref sig .tc) (hb : IsArg b) : W10 m ρ c (Proc.devRef .tc b) = m ((c : Thread nD τ).loc b) :=
  (Kept.kept10 m ρ c b (Or.inl hb)).trans (Kept.arg_at1 m ρ c b hb)
theorem args_at11 (b : Ref sig .tc) (hb : IsArg b) : W11 m ρ c (Proc.devRef .tc b) = m ((c : Thread nD τ).loc b) :=
  (Kept.kept11 m ρ c b (Or.inl hb)).trans (Kept.arg_at1 m ρ c b hb)

/-! ## Boundary 1: the degree norms -/

/-- The source-side norm vector is the reference's, at the kernel program's edge sources. -/
theorem normSrc_1 : W1 m ρ c (Proc.devRef .tc main_v9) = val_main_v9 (F := Ideal) (m ((c : Thread nD τ).loc main_arg7)) := by
  show StableHlo.after hostOps0 (W0 m ρ c) (Proc.devRef .tc main_v9) = _
  after_results
  rfl

/-- The destination-side norm vector is the reference's, at the kernel program's edge destinations. -/
theorem normDst_1 : W1 m ρ c (Proc.devRef .tc main_v12) = val_main_v12 (F := Ideal) (m ((c : Thread nD τ).loc main_arg8)) := by
  show StableHlo.after hostOps0 (W0 m ρ c) (Proc.devRef .tc main_v12) = _
  after_results
  rfl

/-- The first scaling region's norm column is the source-side norm vector recast as a column. -/
theorem normSrcCol_1 : W1 m ρ c (Proc.devRef .tc main_v13)
    = shapeCast S50000x1 (val_main_v9 (F := Ideal) (m ((c : Thread nD τ).loc main_arg7))) shapeCasts_S50000_S50000x1 := by
  show StableHlo.after hostOps0 (W0 m ρ c) (Proc.devRef .tc main_v13) = _
  after_results
  rfl

theorem normDst_at2 : W2 m ρ c (Proc.devRef .tc main_v12) = val_main_v12 (F := Ideal) (m ((c : Thread nD τ).loc main_arg8)) :=
  (Kept.kept2 m ρ c main_v12 isKeptDst).trans (normDst_1 m ρ c)
theorem normSrc_at4 : W4 m ρ c (Proc.devRef .tc main_v9) = val_main_v9 (F := Ideal) (m ((c : Thread nD τ).loc main_arg7)) :=
  (Kept.kept4 m ρ c main_v9 isKeptSrc).trans (normSrc_1 m ρ c)
theorem normDst_at6 : W6 m ρ c (Proc.devRef .tc main_v12) = val_main_v12 (F := Ideal) (m ((c : Thread nD τ).loc main_arg8)) :=
  (Kept.kept6 m ρ c main_v12 isKeptDst).trans (normDst_1 m ρ c)
theorem normSrc_at8 : W8 m ρ c (Proc.devRef .tc main_v9) = val_main_v9 (F := Ideal) (m ((c : Thread nD τ).loc main_arg7)) :=
  (Kept.kept8 m ρ c main_v9 isKeptSrc).trans (normSrc_1 m ρ c)
theorem normDst_at10 : W10 m ρ c (Proc.devRef .tc main_v12) = val_main_v12 (F := Ideal) (m ((c : Thread nD τ).loc main_arg8)) :=
  (Kept.kept10 m ρ c main_v12 isKeptDst).trans (normDst_1 m ρ c)

/-! ## Layer 1 -/

/-- Boundary 2: the first scaling region leaves the features with each row scaled by its source norm. -/
theorem scaled1 : W2 m ρ c (Proc.devRef .tc main_v14) = val_main_v15 (F := Ideal) (m ((c : Thread nD τ).loc main_arg0)) (m ((c : Thread nD τ).loc main_arg7)) := by
  refine ((W2_arr m ρ c 2).trans (ScaleRows0.array_eq (V1 m ρ) c)).trans ?_
  show ScaleRows0.rowScaled (W1 m ρ c (Proc.devRef .tc main_arg0)) (W1 m ρ c (Proc.devRef .tc main_v13)) = _
  rw [Kept.arg_at1 m ρ c main_arg0 isArg0, normSrcCol_1 m ρ c]
  funext i
  obtain ⟨r, q, rfl⟩ : ∃ (r : Fin 50000) (q : Fin 64), i = ix2 r q := ⟨i 0, i 1, eq_ix2 i⟩
  rw [scaled1_at]
  unfold ScaleRows0.rowScaled
  rw [ColumnLayout.shapeCast_a_a1_apply]

/-- Boundary 3: the aggregated messages. -/
theorem agg1 : W3 m ρ c (Proc.devRef .tc main_v24) = val_main_v25 (F := Ideal) (m ((c : Thread nD τ).loc main_arg0)) (m ((c : Thread nD τ).loc main_arg7)) (m ((c : Thread nD τ).loc main_arg8)) := by
  show StableHlo.after hostOps1 (W2 m ρ c) (Proc.devRef .tc main_v24) = _
  after_results_simp
  rw [scaled1 m ρ c, args_at2 m ρ c main_arg7 isArg7, args_at2 m ρ c main_arg8 isArg8]
  rfl

theorem normDstCol_3 : W3 m ρ c (Proc.devRef .tc main_v25)
    = shapeCast S50000x1 (val_main_v12 (F := Ideal) (m ((c : Thread nD τ).loc main_arg8))) shapeCasts_S50000_S50000x1 := by
  show StableHlo.after hostOps1 (W2 m ρ c) (Proc.devRef .tc main_v25) = _
  after_results
  rw [normDst_at2 m ρ c]
  rfl

theorem biasRow_3 : W3 m ρ c (Proc.devRef .tc main_v26) = shapeCast S1x64 (m ((c : Thread nD τ).loc main_arg2)) shapeCasts_S64_S1x64 := by
  show StableHlo.after hostOps1 (W2 m ρ c) (Proc.devRef .tc main_v26) = _
  after_results
  rw [args_at2 m ρ c main_arg2 isArg2]
  rfl

/-- Boundary 4: the first dense region leaves the first layer's activations. -/
theorem hidden1 : W4 m ρ c (Proc.devRef .tc main_v27) = val_main_v33 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine ((W4_arr m ρ c 4).trans (Dense1.array_eq (V3 m ρ) c)).trans ?_
  show Dense1.denseRelu (W3 m ρ c (Proc.devRef .tc main_v24)) (W3 m ρ c (Proc.devRef .tc main_v25))
    (W3 m ρ c (Proc.devRef .tc main_arg1)) (W3 m ρ c (Proc.devRef .tc main_v26)) = _
  rw [agg1 m ρ c, normDstCol_3 m ρ c, args_at3 m ρ c main_arg1 isArg1, biasRow_3 m ρ c]
  funext i
  obtain ⟨r, q, rfl⟩ : ∃ (r : Fin 50000) (q : Fin 64), i = ix2 r q := ⟨i 0, i 1, eq_ix2 i⟩
  rw [hidden1_at]
  unfold Dense1.denseRelu
  rw [ColumnLayout.shapeCast_a_a1_apply, shapeCast_a_1a_apply]

/-! ## Layer 2 -/

theorem normSrcCol_5 : W5 m ρ c (Proc.devRef .tc main_v28)
    = shapeCast S50000x1 (val_main_v9 (F := Ideal) (m ((c : Thread nD τ).loc main_arg7))) shapeCasts_S50000_S50000x1 := by
  show StableHlo.after hostOps2 (W4 m ρ c) (Proc.devRef .tc main_v28) = _
  after_results
  rw [normSrc_at4 m ρ c]
  rfl

theorem hidden1_at5 : W5 m ρ c (Proc.devRef .tc main_v27) = val_main_v33 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
  (Kept.v27_at5 m ρ c).trans (hidden1 m ρ c)

/-- Boundary 6: the second scaling region. -/
theorem scaled2 : W6 m ρ c (Proc.devRef .tc main_v29) = val_main_v36 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine ((W6_arr m ρ c 2).trans (ScaleRows2.array_eq (V5 m ρ) c)).trans ?_
  show ScaleRows2.rowScaled (W5 m ρ c (Proc.devRef .tc main_v27)) (W5 m ρ c (Proc.devRef .tc main_v28)) = _
  rw [hidden1_at5 m ρ c, normSrcCol_5 m ρ c]
  funext i
  obtain ⟨r, q, rfl⟩ : ∃ (r : Fin 50000) (q : Fin 64), i = ix2 r q := ⟨i 0, i 1, eq_ix2 i⟩
  rw [scaled2_at]
  unfold ScaleRows2.rowScaled
  rw [ColumnLayout.shapeCast_a_a1_apply]

theorem agg2 : W7 m ρ c (Proc.devRef .tc main_v39) = val_main_v46 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  show StableHlo.after hostOps3 (W6 m ρ c) (Proc.devRef .tc main_v39) = _
  after_results_simp
  rw [scaled2 m ρ c, args_at6 m ρ c main_arg7 isArg7, args_at6 m ρ c main_arg8 isArg8]
  rfl

theorem normDstCol_7 : W7 m ρ c (Proc.devRef .tc main_v40)
    = shapeCast S50000x1 (val_main_v12 (F := Ideal) (m ((c : Thread nD τ).loc main_arg8))) shapeCasts_S50000_S50000x1 := by
  show StableHlo.after hostOps3 (W6 m ρ c) (Proc.devRef .tc main_v40) = _
  after_results
  rw [normDst_at6 m ρ c]
  rfl

theorem biasRow_7 : W7 m ρ c (Proc.devRef .tc main_v41) = shapeCast S1x32 (m ((c : Thread nD τ).loc main_arg4)) shapeCasts_S32_S1x32 := by
  show StableHlo.after hostOps3 (W6 m ρ c) (Proc.devRef .tc main_v41) = _
  after_results
  rw [args_at6 m ρ c main_arg4 isArg4]
  rfl

/-- Boundary 8: the second dense region leaves the second layer's output, the program's first result. -/
theorem embed : W8 m ρ c (Proc.devRef .tc main_v42) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine ((W8_arr m ρ c 4).trans (Dense3.array_eq (V7 m ρ) c)).trans ?_
  show Dense3.dense (W7 m ρ c (Proc.devRef .tc main_v39)) (W7 m ρ c (Proc.devRef .tc main_v40))
    (W7 m ρ c (Proc.devRef .tc main_arg3)) (W7 m ρ c (Proc.devRef .tc main_v41)) = _
  rw [agg2 m ρ c, normDstCol_7 m ρ c, args_at7 m ρ c main_arg3 isArg3, biasRow_7 m ρ c]
  funext i
  obtain ⟨r, q, rfl⟩ : ∃ (r : Fin 50000) (q : Fin 32), i = ix2 r q := ⟨i 0, i 1, eq_ix2 i⟩
  rw [embed_at]
  unfold Dense3.dense
  rw [ColumnLayout.shapeCast_a_a1_apply, shapeCast_a_1a_apply]

/-! ## Layer 3 -/

theorem normSrcCol_9 : W9 m ρ c (Proc.devRef .tc main_v43)
    = shapeCast S50000x1 (val_main_v9 (F := Ideal) (m ((c : Thread nD τ).loc main_arg7))) shapeCasts_S50000_S50000x1 := by
  show StableHlo.after hostOps4 (W8 m ρ c) (Proc.devRef .tc main_v43) = _
  after_results
  rw [normSrc_at8 m ρ c]
  rfl

theorem embed_at9 : W9 m ρ c (Proc.devRef .tc main_v42) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (Kept.v42_at9 m ρ c).trans (embed m ρ c)

/-- Boundary 10: the third scaling region applies the activation and scales the rows. -/
theorem scaled3 : W10 m ρ c (Proc.devRef .tc main_v44) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine ((W10_arr m ρ c 2).trans (ScaleRows4.array_eq (V9 m ρ) c)).trans ?_
  show ScaleRows4.reluRowScaled (W9 m ρ c (Proc.devRef .tc main_v42)) (W9 m ρ c (Proc.devRef .tc main_v43)) = _
  rw [embed_at9 m ρ c, normSrcCol_9 m ρ c]
  funext i
  obtain ⟨r, q, rfl⟩ : ∃ (r : Fin 50000) (q : Fin 32), i = ix2 r q := ⟨i 0, i 1, eq_ix2 i⟩
  rw [scaled3_at]
  unfold ScaleRows4.reluRowScaled
  rw [ColumnLayout.shapeCast_a_a1_apply]

theorem agg3 : W11 m ρ c (Proc.devRef .tc main_v54) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  show StableHlo.after hostOps5 (W10 m ρ c) (Proc.devRef .tc main_v54) = _
  after_results_simp
  rw [scaled3 m ρ c, args_at10 m ρ c main_arg7 isArg7, args_at10 m ρ c main_arg8 isArg8]
  rfl

theorem normDstCol_11 : W11 m ρ c (Proc.devRef .tc main_v55)
    = shapeCast S50000x1 (val_main_v12 (F := Ideal) (m ((c : Thread nD τ).loc main_arg8))) shapeCasts_S50000_S50000x1 := by
  show StableHlo.after hostOps5 (W10 m ρ c) (Proc.devRef .tc main_v55) = _
  after_results
  rw [normDst_at10 m ρ c]
  rfl

theorem biasRow_11 : W11 m ρ c (Proc.devRef .tc main_v56) = shapeCast S1x16 (m ((c : Thread nD τ).loc main_arg6)) shapeCasts_S16_S1x16 := by
  show StableHlo.after hostOps5 (W10 m ρ c) (Proc.devRef .tc main_v56) = _
  after_results
  rw [args_at10 m ρ c main_arg6 isArg6]
  rfl

/-- Boundary 12: the third dense region leaves the third layer's output, the program's second result. -/
theorem out3 : W12 m ρ c (Proc.devRef .tc main_v57) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W12_arr m ρ c 4).trans (Dense5.array_eq (V11 m ρ) c)).trans ?_
  show Dense5.dense (W11 m ρ c (Proc.devRef .tc main_v54)) (W11 m ρ c (Proc.devRef .tc main_v55))
    (W11 m ρ c (Proc.devRef .tc main_arg5)) (W11 m ρ c (Proc.devRef .tc main_v56)) = _
  rw [agg3 m ρ c, normDstCol_11 m ρ c, args_at11 m ρ c main_arg5 isArg5, biasRow_11 m ρ c]
  funext i
  obtain ⟨r, q, rfl⟩ : ∃ (r : Fin 50000) (q : Fin 16), i = ix2 r q := ⟨i 0, i 1, eq_ix2 i⟩
  rw [out3_at]
  unfold Dense5.dense
  rw [ColumnLayout.shapeCast_a_a1_apply, shapeCast_a_1a_apply]

/-- The program's first result at the end: the second layer's output, untouched since boundary 8. -/
theorem embed_at12 : W12 m ρ c (Proc.devRef .tc main_v42) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (Kept.v42_at12 m ρ c).trans (embed m ρ c)

end Cert.KernelIdeal.Layers

end
-- ==== Proof.lean ====
/-
  A three-layer graph convolution: a kernel program against a reference written with host operations only.

  For n nodes, a list of edges (source, destination), features x and per-layer weights W and biases b, write
  n_s, n_d for the degree norms (the reciprocal square root of max (degree, 1), by source and by destination)
  and agg for "sum over the edges into each node of the table's row at the edge's source".  One layer is
      layer (x, W, b) = (agg (x · n_s) · n_d) W + b,
  and both programs return the pair
      ( e,  layer (max (e, 0), W3, b3) )     with   e = layer (max (layer (x, W1, b1), 0), W2, b2).
  The kernel program computes the row scalings and the dense parts in six kernel regions over blocks of 10000
  rows, rounding the matrix product's operands to a shorter float format, which is the identity on exact
  numbers; the reference computes everything on the host.  Over the extended reals the two agree entry by entry
  for all inputs, infinite ones included: no step moves a factor across a sum or cancels anything, the matrix
  products are the same sums in the same grouping, and the degree norms and the aggregations are literally the
  same host operations on both sides.  So the precondition is never opened.

  The pieces: each scaling region's and each dense region's output array as a closed form of its input arrays
  (ScaleRows0/2/4, DenseLayer1/3/5), the reference's layer stages read at an index (RefStages), the buffers the
  kernel program never overwrites (Kept), the kernel program's buffers at every segment boundary identified with
  the reference's stages (Layers), and the kernel program's run with its two results named (KernelRun).  The
  ideal pass rewrote nothing in the kernel, so its idealization is the program's own text read over exact numbers.
-/
import proofs.«112273_j32023276159006_1_alg».proof.Defs
import proofs.«112273_j32023276159006_1_alg».proof.Proof.Gen.Kernel
import proofs.«112273_j32023276159006_1_alg».proof.Proof.Gen.Kernel.Skeleton
import proofs.«112273_j32023276159006_1_alg».proof.Proof.Gen.Kernel.Launch
import proofs.«112273_j32023276159006_1_alg».proof.Proof.Gen.Kernel.Points
import proofs.«112273_j32023276159006_1_alg».proof.Proof.Gen.Kernel.Frame
import proofs.«112273_j32023276159006_1_alg».proof.Proof.Gen.KernelIdeal
import proofs.«112273_j32023276159006_1_alg».proof.Proof.Gen.KernelIdeal.Skeleton
import proofs.«112273_j32023276159006_1_alg».proof.Proof.Gen.KernelIdeal.Launch
import proofs.«112273_j32023276159006_1_alg».proof.Proof.Gen.KernelIdeal.Points
import proofs.«112273_j32023276159006_1_alg».proof.Proof.Gen.KernelIdeal.Frame
import proofs.«112273_j32023276159006_1_alg».proof.Proof.Gen.ReferenceIdeal
import proofs.«112273_j32023276159006_1_alg».proof.Proof.Gen.ReferenceIdeal.Run
import proofs.«112273_j32023276159006_1_alg».proof.Proof.Gen.ReferenceIdeal.Read
import proofs.«112273_j32023276159006_1_alg».proof.Proof.Gen.Pre_finite_inputs
import proofs.«112273_j32023276159006_1_alg».proof.Proof.KernelRun
import proofs.«112273_j32023276159006_1_alg».proof.Proof.Layers
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- So does its reading over exact numbers. -/
theorem frame_kernelIdeal : Cert.frame_KernelIdeal := fun m ρ _ => Cert.KernelIdeal.Gen.frame m ρ

/-- The reference runs and leaves its arguments as launched: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel: nothing to restate. -/
theorem preserves : Cert.preserves_Kernel_KernelIdeal := trivial

/-- From memories that agree on the nine arguments both programs end with the second layer's output and the
    third layer's output equal entry by entry: both are the reference's stages evaluated at the kernel program's
    arguments. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    ?_, ?_⟩
  · -- the kernel program: its run, then what the last boundary holds at the two results
    exact (θ_run Cert.KernelIdeal.defs _ _).mono
      (fun r h c => ⟨(h c).1.trans (Cert.KernelIdeal.Layers.embed_at12 m ρ c),
        (h c).2.1.trans (Cert.KernelIdeal.Layers.out3 m ρ c), (h c).2.2⟩)
      (Cert.KernelIdeal.RunValue.run_results (F := Ideal) m ρ)
  · -- the reference: its run, its results as stages of its own arguments, and those are the kernel program's
    refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.ReferenceIdeal.Read.val_main_v53_eq, e0, e1, e2, e3, e4, e7, e8]
    · obtain ⟨e0, e1, e2, e3, e4, e5, e6, e7, e8⟩ := hagree c
      rw [Cert.ReferenceIdeal.Read.val_main_v74_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
